-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x512x1024 : Shape := ⟨4, ![4, 16, 512, 1024]⟩
abbrev S512x1024x2 : Shape := ⟨3, ![512, 1024, 2]⟩
abbrev S_ : Shape := ⟨0, ![]⟩

class Facts : Prop where
  bcast_S_S4x16x512x1024 : S_.BroadcastsInDim S4x16x512x1024 (![] : Fin 0 → Fin S4x16x512x1024.rank)
  reducesTo_S4x16x512x1024_S_d0_1_2_3 : S4x16x512x1024.ReducesTo [0, 1, 2, 3] S_
  h_S_ : 0 < S_.numel
  bcast_S_S512x1024x2 : S_.BroadcastsInDim S512x1024x2 (![] : Fin 0 → Fin S512x1024x2.rank)
  reducesTo_S512x1024x2_S_d0_1_2 : S512x1024x2.ReducesTo [0, 1, 2] S_

variable [Facts]

def fn {F : FTy → Type} [FloatOps F] (main_arg0 : FVec F S4x16x512x1024 .f32) (main_arg1 : FVec F S512x1024x2 .f32) : IVec S_ 1 :=
  let main_v0 : FVec F S4x16x512x1024 .f32 := Host.absf main_arg0
  let main_cst : FVec F S_ .f32 := constant S_ .f32 0x7F800000#32
  let main_v1 : FVec F S4x16x512x1024 .f32 := broadcastInDim S4x16x512x1024 ![] bcast_S_S4x16x512x1024 main_cst
  let main_v2 : IVec S4x16x512x1024 1 := cmpf .olt main_v0 main_v1
  let main_c : IVec S_ 1 := constantI S_ 1 1#1
  let main_v3 : IVec S_ 1 := (fun x v => Host.reduce IntOp.andi x v reducesTo_S4x16x512x1024_S_d0_1_2_3 h_S_) main_v2 main_c
  let main_v4 : FVec F S512x1024x2 .f32 := Host.absf main_arg1
  let main_cst_0 : FVec F S_ .f32 := constant S_ .f32 0x7F800000#32
  let main_v5 : FVec F S512x1024x2 .f32 := broadcastInDim S512x1024x2 ![] bcast_S_S512x1024x2 main_cst_0
  let main_v6 : IVec S512x1024x2 1 := cmpf .olt main_v4 main_v5
  let main_c_1 : IVec S_ 1 := constantI S_ 1 1#1
  let main_v7 : IVec S_ 1 := (fun x v => Host.reduce IntOp.andi x v reducesTo_S512x1024x2_S_d0_1_2 h_S_) main_v6 main_c_1
  let main_v8 : IVec S_ 1 := andi main_v3 main_v7
  main_v8
-- ==== Kernel.lean ====
abbrev S4x16x512x1024 : Shape := ⟨4, ![4, 16, 512, 1024]⟩
abbrev S512x1024x2 : Shape := ⟨3, ![512, 1024, 2]⟩
abbrev S512x1024x1 : Shape := ⟨3, ![512, 1024, 1]⟩
abbrev S512x1024 : Shape := ⟨2, ![512, 1024]⟩
abbrev S_ : Shape := ⟨0, ![]⟩
abbrev S512x1024x4x16 : Shape := ⟨4, ![512, 1024, 4, 16]⟩
abbrev S524288x64 : Shape := ⟨2, ![524288, 64]⟩
abbrev S524288 : Shape := ⟨1, ![524288]⟩
abbrev S524288x1 : Shape := ⟨2, ![524288, 1]⟩
abbrev S1 : Shape := ⟨1, ![1]⟩
abbrev S1x1 : Shape := ⟨2, ![1, 1]⟩
abbrev S4096x64 : Shape := ⟨2, ![4096, 64]⟩
abbrev S4096x1 : Shape := ⟨2, ![4096, 1]⟩

abbrev nBuf : Space → Nat
  | .hbm => 171
  | .vmem => 14
  | .smem => 0
  | _ => 0

abbrev hbmTy0_0 (i : Nat) : BufTy := match i % 128 with
  | 0 => ⟨S4x16x512x1024, .f32⟩
  | 1 => ⟨S512x1024x2, .f32⟩
  | 2 => ⟨S512x1024x1, .f32⟩
  | 3 => ⟨S512x1024, .f32⟩
  | 4 => ⟨S512x1024x1, .f32⟩
  | 5 => ⟨S512x1024, .f32⟩
  | 6 => ⟨S512x1024, .f32⟩
  | 7 => ⟨S512x1024, .f32⟩
  | 8 => ⟨S512x1024, .f32⟩
  | 9 => ⟨S512x1024, .f32⟩
  | 10 => ⟨S512x1024, .i32⟩
  | 11 => ⟨S_, .i32⟩
  | 12 => ⟨S_, .i32⟩
  | 13 => ⟨S_, .i32⟩
  | 14 => ⟨S512x1024, .i32⟩
  | 15 => ⟨S512x1024, .i32⟩
  | 16 => ⟨S_, .i32⟩
  | 17 => ⟨S512x1024, .i32⟩
  | 18 => ⟨S512x1024, .i32⟩
  | 19 => ⟨S512x1024, .i32⟩
  | 20 => ⟨S_, .i32⟩
  | 21 => ⟨S_, .i32⟩
  | 22 => ⟨S_, .i32⟩
  | 23 => ⟨S512x1024, .i32⟩
  | 24 => ⟨S512x1024, .i32⟩
  | 25 => ⟨S_, .i32⟩
  | 26 => ⟨S512x1024, .i32⟩
  | 27 => ⟨S512x1024, .i32⟩
  | 28 => ⟨S512x1024, .i32⟩
  | 29 => ⟨S_, .i32⟩
  | 30 => ⟨S512x1024, .i32⟩
  | 31 => ⟨S512x1024, .i32⟩
  | 32 => ⟨S_, .i32⟩
  | 33 => ⟨S_, .i32⟩
  | 34 => ⟨S_, .i32⟩
  | 35 => ⟨S512x1024, .i32⟩
  | 36 => ⟨S512x1024, .i32⟩
  | 37 => ⟨S_, .i32⟩
  | 38 => ⟨S512x1024, .i32⟩
  | 39 => ⟨S512x1024, .i32⟩
  | 40 => ⟨S512x1024, .i32⟩
  | 41 => ⟨S_, .i32⟩
  | 42 => ⟨S512x1024, .i32⟩
  | 43 => ⟨S512x1024, .i32⟩
  | 44 => ⟨S_, .i32⟩
  | 45 => ⟨S_, .i32⟩
  | 46 => ⟨S_, .i32⟩
  | 47 => ⟨S512x1024, .i32⟩
  | 48 => ⟨S512x1024, .i32⟩
  | 49 => ⟨S_, .i32⟩
  | 50 => ⟨S512x1024, .i32⟩
  | 51 => ⟨S512x1024, .i32⟩
  | 52 => ⟨S512x1024x4x16, .f32⟩
  | 53 => ⟨S524288x64, .f32⟩
  | 54 => ⟨S_, .i32⟩
  | 55 => ⟨S512x1024, .i32⟩
  | 56 => ⟨S512x1024, .i32⟩
  | 57 => ⟨S512x1024, .i32⟩
  | 58 => ⟨S524288, .i32⟩
  | 59 => ⟨S_, .i32⟩
  | 60 => ⟨S524288, .i32⟩
  | 61 => ⟨S524288, .i1⟩
  | 62 => ⟨S_, .i32⟩
  | 63 => ⟨S524288, .i32⟩
  | 64 => ⟨S524288, .i32⟩
  | 65 => ⟨S524288, .i32⟩
  | 66 => ⟨S524288x1, .i32⟩
  | 67 => ⟨S1, .i32⟩
  | 68 => ⟨S_, .i32⟩
  | 69 => ⟨S524288x1, .i32⟩
  | 70 => ⟨S524288x1, .i1⟩
  | 71 => ⟨S1x1, .i32⟩
  | 72 => ⟨S524288x1, .i32⟩
  | 73 => ⟨S524288x1, .i1⟩
  | 74 => ⟨S524288x1, .i1⟩
  | 75 => ⟨S_, .i1⟩
  | 76 => ⟨S524288, .i1⟩
  | 77 => ⟨S524288x64, .f32⟩
  | 78 => ⟨S524288x64, .i1⟩
  | 79 => ⟨S_, .f32⟩
  | 80 => ⟨S524288x64, .f32⟩
  | 81 => ⟨S524288x64, .f32⟩
  | 82 => ⟨S_, .i32⟩
  | 83 => ⟨S512x1024, .i32⟩
  | 84 => ⟨S512x1024, .i32⟩
  | 85 => ⟨S512x1024, .i32⟩
  | 86 => ⟨S524288, .i32⟩
  | 87 => ⟨S_, .i32⟩
  | 88 => ⟨S524288, .i32⟩
  | 89 => ⟨S524288, .i1⟩
  | 90 => ⟨S_, .i32⟩
  | 91 => ⟨S524288, .i32⟩
  | 92 => ⟨S524288, .i32⟩
  | 93 => ⟨S524288, .i32⟩
  | 94 => ⟨S524288x1, .i32⟩
  | 95 => ⟨S1, .i32⟩
  | 96 => ⟨S_, .i32⟩
  | 97 => ⟨S524288x1, .i32⟩
  | 98 => ⟨S524288x1, .i1⟩
  | 99 => ⟨S1x1, .i32⟩
  | 100 => ⟨S524288x1, .i32⟩
  | 101 => ⟨S524288x1, .i1⟩
  | 102 => ⟨S524288x1, .i1⟩
  | 103 => ⟨S_, .i1⟩
  | 104 => ⟨S524288, .i1⟩
  | 105 => ⟨S524288x64, .f32⟩
  | 106 => ⟨S524288x64, .i1⟩
  | 107 => ⟨S_, .f32⟩
  | 108 => ⟨S524288x64, .f32⟩
  | 109 => ⟨S524288x64, .f32⟩
  | 110 => ⟨S_, .i32⟩
  | 111 => ⟨S512x1024, .i32⟩
  | 112 => ⟨S512x1024, .i32⟩
  | 113 => ⟨S512x1024, .i32⟩
  | 114 => ⟨S524288, .i32⟩
  | 115 => ⟨S_, .i32⟩
  | 116 => ⟨S524288, .i32⟩
  | 117 => ⟨S524288, .i1⟩
  | 118 => ⟨S_, .i32⟩
  | 119 => ⟨S524288, .i32⟩
  | 120 => ⟨S524288, .i32⟩
  | 121 => ⟨S524288, .i32⟩
  | 122 => ⟨S524288x1, .i32⟩
  | 123 => ⟨S1, .i32⟩
  | 124 => ⟨S_, .i32⟩
  | 125 => ⟨S524288x1, .i32⟩
  | 126 => ⟨S524288x1, .i1⟩
  | 127 => ⟨S1x1, .i32⟩
  | _ => ⟨S4x16x512x1024, .f32⟩

abbrev hbmTy0_1 (i : Nat) : BufTy := match i % 128 with
  | 0 => ⟨S524288x1, .i32⟩
  | 1 => ⟨S524288x1, .i1⟩
  | 2 => ⟨S524288x1, .i1⟩
  | 3 => ⟨S_, .i1⟩
  | 4 => ⟨S524288, .i1⟩
  | 5 => ⟨S524288x64, .f32⟩
  | 6 => ⟨S524288x64, .i1⟩
  | 7 => ⟨S_, .f32⟩
  | 8 => ⟨S524288x64, .f32⟩
  | 9 => ⟨S524288x64, .f32⟩
  | 10 => ⟨S_, .i32⟩
  | 11 => ⟨S512x1024, .i32⟩
  | 12 => ⟨S512x1024, .i32⟩
  | 13 => ⟨S512x1024, .i32⟩
  | 14 => ⟨S524288, .i32⟩
  | 15 => ⟨S_, .i32⟩
  | 16 => ⟨S524288, .i32⟩
  | 17 => ⟨S524288, .i1⟩
  | 18 => ⟨S_, .i32⟩
  | 19 => ⟨S524288, .i32⟩
  | 20 => ⟨S524288, .i32⟩
  | 21 => ⟨S524288, .i32⟩
  | 22 => ⟨S524288x1, .i32⟩
  | 23 => ⟨S1, .i32⟩
  | 24 => ⟨S_, .i32⟩
  | 25 => ⟨S524288x1, .i32⟩
  | 26 => ⟨S524288x1, .i1⟩
  | 27 => ⟨S1x1, .i32⟩
  | 28 => ⟨S524288x1, .i32⟩
  | 29 => ⟨S524288x1, .i1⟩
  | 30 => ⟨S524288x1, .i1⟩
  | 31 => ⟨S_, .i1⟩
  | 32 => ⟨S524288, .i1⟩
  | 33 => ⟨S524288x64, .f32⟩
  | 34 => ⟨S524288x64, .i1⟩
  | 35 => ⟨S_, .f32⟩
  | 36 => ⟨S524288x64, .f32⟩
  | 37 => ⟨S524288x64, .f32⟩
  | 38 => ⟨S524288x1, .f32⟩
  | 39 => ⟨S524288x1, .f32⟩
  | 40 => ⟨S524288x64, .f32⟩
  | 41 => ⟨S512x1024x4x16, .f32⟩
  | 42 => ⟨S4x16x512x1024, .f32⟩
  | _ => ⟨S4x16x512x1024, .f32⟩

abbrev hbmTy (i : Nat) : BufTy := match i / 128 with
  | 0 => hbmTy0_0 i
  | 1 => hbmTy0_1 i
  | _ => ⟨S4x16x512x1024, .f32⟩

abbrev bufTy : (tb : Table) → Fin (tcTables nBuf tb) → BufTy
  | .hbm, ⟨i, _⟩ => hbmTy i
  | .local _ .vmem, ⟨0, _⟩ => ⟨S4096x64, .f32⟩
  | .local _ .vmem, ⟨1, _⟩ => ⟨S4096x64, .f32⟩
  | .local _ .vmem, ⟨2, _⟩ => ⟨S4096x64, .f32⟩
  | .local _ .vmem, ⟨3, _⟩ => ⟨S4096x64, .f32⟩
  | .local _ .vmem, ⟨4, _⟩ => ⟨S4096x64, .f32⟩
  | .local _ .vmem, ⟨5, _⟩ => ⟨S4096x64, .f32⟩
  | .local _ .vmem, ⟨6, _⟩ => ⟨S4096x64, .f32⟩
  | .local _ .vmem, ⟨7, _⟩ => ⟨S4096x64, .f32⟩
  | .local _ .vmem, ⟨8, _⟩ => ⟨S4096x1, .f32⟩
  | .local _ .vmem, ⟨9, _⟩ => ⟨S4096x1, .f32⟩
  | .local _ .vmem, ⟨10, _⟩ => ⟨S4096x1, .f32⟩
  | .local _ .vmem, ⟨11, _⟩ => ⟨S4096x1, .f32⟩
  | .local _ .vmem, ⟨12, _⟩ => ⟨S4096x64, .f32⟩
  | .local _ .vmem, ⟨13, _⟩ => ⟨S4096x64, .f32⟩
  | _, _ => ⟨S4x16x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_call0_v7 : Ref sig .tc := ⟨.hbm, 9, rfl⟩
abbrev main_call0_v8 : Ref sig .tc := ⟨.hbm, 10, rfl⟩
abbrev main_call0_c : Ref sig .tc := ⟨.hbm, 11, rfl⟩
abbrev main_call0_c_0 : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_v9 : Ref sig .tc := ⟨.hbm, 18, rfl⟩
abbrev main_call0_v10 : Ref sig .tc := ⟨.hbm, 19, rfl⟩
abbrev main_call0_c_1 : Ref sig .tc := ⟨.hbm, 20, rfl⟩
abbrev main_call0_c_2 : Ref sig .tc := ⟨.hbm, 21, rfl⟩
abbrev main_call0_call1_v0 : Ref sig .tc := ⟨.hbm, 22, rfl⟩
abbrev main_call0_call1_v1 : Ref sig .tc := ⟨.hbm, 23, rfl⟩
abbrev main_call0_call1_v2 : Ref sig .tc := ⟨.hbm, 24, rfl⟩
abbrev main_call0_call1_v3 : Ref sig .tc := ⟨.hbm, 25, rfl⟩
abbrev main_call0_call1_v4 : Ref sig .tc := ⟨.hbm, 26, rfl⟩
abbrev main_call0_v11 : Ref sig .tc := ⟨.hbm, 27, rfl⟩
abbrev main_call0_v12 : Ref sig .tc := ⟨.hbm, 28, rfl⟩
abbrev main_call0_c_3 : Ref sig .tc := ⟨.hbm, 29, rfl⟩
abbrev main_call0_v13 : Ref sig .tc := ⟨.hbm, 30, rfl⟩
abbrev main_call0_v14 : Ref sig .tc := ⟨.hbm, 31, rfl⟩
abbrev main_call0_c_4 : Ref sig .tc := ⟨.hbm, 32, rfl⟩
abbrev main_call0_c_5 : Ref sig .tc := ⟨.hbm, 33, rfl⟩
abbrev main_call0_call2_v0 : Ref sig .tc := ⟨.hbm, 34, rfl⟩
abbrev main_call0_call2_v1 : Ref sig .tc := ⟨.hbm, 35, rfl⟩
abbrev main_call0_call2_v2 : Ref sig .tc := ⟨.hbm, 36, rfl⟩
abbrev main_call0_call2_v3 : Ref sig .tc := ⟨.hbm, 37, rfl⟩
abbrev main_call0_call2_v4 : Ref sig .tc := ⟨.hbm, 38, rfl⟩
abbrev main_call0_v15 : Ref sig .tc := ⟨.hbm, 39, rfl⟩
abbrev main_call0_v16 : Ref sig .tc := ⟨.hbm, 40, rfl⟩
abbrev main_call0_c_6 : Ref sig .tc := ⟨.hbm, 41, rfl⟩
abbrev main_call0_v17 : Ref sig .tc := ⟨.hbm, 42, rfl⟩
abbrev main_call0_v18 : Ref sig .tc := ⟨.hbm, 43, rfl⟩
abbrev main_call0_c_7 : Ref sig .tc := ⟨.hbm, 44, rfl⟩
abbrev main_call0_c_8 : Ref sig .tc := ⟨.hbm, 45, rfl⟩
abbrev main_call0_call3_v0 : Ref sig .tc := ⟨.hbm, 46, rfl⟩
abbrev main_call0_call3_v1 : Ref sig .tc := ⟨.hbm, 47, rfl⟩
abbrev main_call0_call3_v2 : Ref sig .tc := ⟨.hbm, 48, rfl⟩
abbrev main_call0_call3_v3 : Ref sig .tc := ⟨.hbm, 49, rfl⟩
abbrev main_call0_call3_v4 : Ref sig .tc := ⟨.hbm, 50, rfl⟩
abbrev main_call0_v19 : Ref sig .tc := ⟨.hbm, 51, rfl⟩
abbrev main_call0_v20 : Ref sig .tc := ⟨.hbm, 52, rfl⟩
abbrev main_call0_v21 : Ref sig .tc := ⟨.hbm, 53, rfl⟩
abbrev main_call0_c_9 : Ref sig .tc := ⟨.hbm, 54, rfl⟩
abbrev main_call0_v22 : Ref sig .tc := ⟨.hbm, 55, rfl⟩
abbrev main_call0_v23 : Ref sig .tc := ⟨.hbm, 56, rfl⟩
abbrev main_call0_v24 : Ref sig .tc := ⟨.hbm, 57, rfl⟩
abbrev main_call0_v25 : Ref sig .tc := ⟨.hbm, 58, rfl⟩
abbrev main_call0_call4_c : Ref sig .tc := ⟨.hbm, 59, rfl⟩
abbrev main_call0_call4_v0 : Ref sig .tc := ⟨.hbm, 60, rfl⟩
abbrev main_call0_call4_v1 : Ref sig .tc := ⟨.hbm, 61, rfl⟩
abbrev main_call0_call4_c_0 : Ref sig .tc := ⟨.hbm, 62, rfl⟩
abbrev main_call0_call4_v2 : Ref sig .tc := ⟨.hbm, 63, rfl⟩
abbrev main_call0_call4_v3 : Ref sig .tc := ⟨.hbm, 64, rfl⟩
abbrev main_call0_call4_v4 : Ref sig .tc := ⟨.hbm, 65, rfl⟩
abbrev main_call0_call4_v5 : Ref sig .tc := ⟨.hbm, 66, rfl⟩
abbrev main_call0_call4_c_1 : Ref sig .tc := ⟨.hbm, 67, rfl⟩
abbrev main_call0_call4_c_2 : Ref sig .tc := ⟨.hbm, 68, rfl⟩
abbrev main_call0_call4_v6 : Ref sig .tc := ⟨.hbm, 69, rfl⟩
abbrev main_call0_call4_v7 : Ref sig .tc := ⟨.hbm, 70, rfl⟩
abbrev main_call0_call4_v8 : Ref sig .tc := ⟨.hbm, 71, rfl⟩
abbrev main_call0_call4_v9 : Ref sig .tc := ⟨.hbm, 72, rfl⟩
abbrev main_call0_call4_v10 : Ref sig .tc := ⟨.hbm, 73, rfl⟩
abbrev main_call0_call4_v11 : Ref sig .tc := ⟨.hbm, 74, rfl⟩
abbrev main_call0_call4_c_3 : Ref sig .tc := ⟨.hbm, 75, rfl⟩
abbrev main_call0_call4_v12 : Ref sig .tc := ⟨.hbm, 76, rfl⟩
abbrev main_call0_call4_v13 : Ref sig .tc := ⟨.hbm, 77, rfl⟩
abbrev main_call0_call4_v14 : Ref sig .tc := ⟨.hbm, 78, rfl⟩
abbrev main_call0_call4_cst : Ref sig .tc := ⟨.hbm, 79, rfl⟩
abbrev main_call0_call4_v15 : Ref sig .tc := ⟨.hbm, 80, rfl⟩
abbrev main_call0_v26 : Ref sig .tc := ⟨.hbm, 81, rfl⟩
abbrev main_call0_c_10 : Ref sig .tc := ⟨.hbm, 82, rfl⟩
abbrev main_call0_v27 : Ref sig .tc := ⟨.hbm, 83, rfl⟩
abbrev main_call0_v28 : Ref sig .tc := ⟨.hbm, 84, rfl⟩
abbrev main_call0_v29 : Ref sig .tc := ⟨.hbm, 85, rfl⟩
abbrev main_call0_v30 : Ref sig .tc := ⟨.hbm, 86, rfl⟩
abbrev main_call0_call5_c : Ref sig .tc := ⟨.hbm, 87, rfl⟩
abbrev main_call0_call5_v0 : Ref sig .tc := ⟨.hbm, 88, rfl⟩
abbrev main_call0_call5_v1 : Ref sig .tc := ⟨.hbm, 89, rfl⟩
abbrev main_call0_call5_c_0 : Ref sig .tc := ⟨.hbm, 90, rfl⟩
abbrev main_call0_call5_v2 : Ref sig .tc := ⟨.hbm, 91, rfl⟩
abbrev main_call0_call5_v3 : Ref sig .tc := ⟨.hbm, 92, rfl⟩
abbrev main_call0_call5_v4 : Ref sig .tc := ⟨.hbm, 93, rfl⟩
abbrev main_call0_call5_v5 : Ref sig .tc := ⟨.hbm, 94, rfl⟩
abbrev main_call0_call5_c_1 : Ref sig .tc := ⟨.hbm, 95, rfl⟩
abbrev main_call0_call5_c_2 : Ref sig .tc := ⟨.hbm, 96, rfl⟩
abbrev main_call0_call5_v6 : Ref sig .tc := ⟨.hbm, 97, rfl⟩
abbrev main_call0_call5_v7 : Ref sig .tc := ⟨.hbm, 98, rfl⟩
abbrev main_call0_call5_v8 : Ref sig .tc := ⟨.hbm, 99, rfl⟩
abbrev main_call0_call5_v9 : Ref sig .tc := ⟨.hbm, 100, rfl⟩
abbrev main_call0_call5_v10 : Ref sig .tc := ⟨.hbm, 101, rfl⟩
abbrev main_call0_call5_v11 : Ref sig .tc := ⟨.hbm, 102, rfl⟩
abbrev main_call0_call5_c_3 : Ref sig .tc := ⟨.hbm, 103, rfl⟩
abbrev main_call0_call5_v12 : Ref sig .tc := ⟨.hbm, 104, rfl⟩
abbrev main_call0_call5_v13 : Ref sig .tc := ⟨.hbm, 105, rfl⟩
abbrev main_call0_call5_v14 : Ref sig .tc := ⟨.hbm, 106, rfl⟩
abbrev main_call0_call5_cst : Ref sig .tc := ⟨.hbm, 107, rfl⟩
abbrev main_call0_call5_v15 : Ref sig .tc := ⟨.hbm, 108, rfl⟩
abbrev main_call0_v31 : Ref sig .tc := ⟨.hbm, 109, rfl⟩
abbrev main_call0_c_11 : Ref sig .tc := ⟨.hbm, 110, rfl⟩
abbrev main_call0_v32 : Ref sig .tc := ⟨.hbm, 111, rfl⟩
abbrev main_call0_v33 : Ref sig .tc := ⟨.hbm, 112, rfl⟩
abbrev main_call0_v34 : Ref sig .tc := ⟨.hbm, 113, rfl⟩
abbrev main_call0_v35 : Ref sig .tc := ⟨.hbm, 114, rfl⟩
abbrev main_call0_call6_c : Ref sig .tc := ⟨.hbm, 115, rfl⟩
abbrev main_call0_call6_v0 : Ref sig .tc := ⟨.hbm, 116, rfl⟩
abbrev main_call0_call6_v1 : Ref sig .tc := ⟨.hbm, 117, rfl⟩
abbrev main_call0_call6_c_0 : Ref sig .tc := ⟨.hbm, 118, rfl⟩
abbrev main_call0_call6_v2 : Ref sig .tc := ⟨.hbm, 119, rfl⟩
abbrev main_call0_call6_v3 : Ref sig .tc := ⟨.hbm, 120, rfl⟩
abbrev main_call0_call6_v4 : Ref sig .tc := ⟨.hbm, 121, rfl⟩
abbrev main_call0_call6_v5 : Ref sig .tc := ⟨.hbm, 122, rfl⟩
abbrev main_call0_call6_c_1 : Ref sig .tc := ⟨.hbm, 123, rfl⟩
abbrev main_call0_call6_c_2 : Ref sig .tc := ⟨.hbm, 124, rfl⟩
abbrev main_call0_call6_v6 : Ref sig .tc := ⟨.hbm, 125, rfl⟩
abbrev main_call0_call6_v7 : Ref sig .tc := ⟨.hbm, 126, rfl⟩
abbrev main_call0_call6_v8 : Ref sig .tc := ⟨.hbm, 127, rfl⟩
abbrev main_call0_call6_v9 : Ref sig .tc := ⟨.hbm, 128, rfl⟩
abbrev main_call0_call6_v10 : Ref sig .tc := ⟨.hbm, 129, rfl⟩
abbrev main_call0_call6_v11 : Ref sig .tc := ⟨.hbm, 130, rfl⟩
abbrev main_call0_call6_c_3 : Ref sig .tc := ⟨.hbm, 131, rfl⟩
abbrev main_call0_call6_v12 : Ref sig .tc := ⟨.hbm, 132, rfl⟩
abbrev main_call0_call6_v13 : Ref sig .tc := ⟨.hbm, 133, rfl⟩
abbrev main_call0_call6_v14 : Ref sig .tc := ⟨.hbm, 134, rfl⟩
abbrev main_call0_call6_cst : Ref sig .tc := ⟨.hbm, 135, rfl⟩
abbrev main_call0_call6_v15 : Ref sig .tc := ⟨.hbm, 136, rfl⟩
abbrev main_call0_v36 : Ref sig .tc := ⟨.hbm, 137, rfl⟩
abbrev main_call0_c_12 : Ref sig .tc := ⟨.hbm, 138, rfl⟩
abbrev main_call0_v37 : Ref sig .tc := ⟨.hbm, 139, rfl⟩
abbrev main_call0_v38 : Ref sig .tc := ⟨.hbm, 140, rfl⟩
abbrev main_call0_v39 : Ref sig .tc := ⟨.hbm, 141, rfl⟩
abbrev main_call0_v40 : Ref sig .tc := ⟨.hbm, 142, rfl⟩
abbrev main_call0_call7_c : Ref sig .tc := ⟨.hbm, 143, rfl⟩
abbrev main_call0_call7_v0 : Ref sig .tc := ⟨.hbm, 144, rfl⟩
abbrev main_call0_call7_v1 : Ref sig .tc := ⟨.hbm, 145, rfl⟩
abbrev main_call0_call7_c_0 : Ref sig .tc := ⟨.hbm, 146, rfl⟩
abbrev main_call0_call7_v2 : Ref sig .tc := ⟨.hbm, 147, rfl⟩
abbrev main_call0_call7_v3 : Ref sig .tc := ⟨.hbm, 148, rfl⟩
abbrev main_call0_call7_v4 : Ref sig .tc := ⟨.hbm, 149, rfl⟩
abbrev main_call0_call7_v5 : Ref sig .tc := ⟨.hbm, 150, rfl⟩
abbrev main_call0_call7_c_1 : Ref sig .tc := ⟨.hbm, 151, rfl⟩
abbrev main_call0_call7_c_2 : Ref sig .tc := ⟨.hbm, 152, rfl⟩
abbrev main_call0_call7_v6 : Ref sig .tc := ⟨.hbm, 153, rfl⟩
abbrev main_call0_call7_v7 : Ref sig .tc := ⟨.hbm, 154, rfl⟩
abbrev main_call0_call7_v8 : Ref sig .tc := ⟨.hbm, 155, rfl⟩
abbrev main_call0_call7_v9 : Ref sig .tc := ⟨.hbm, 156, rfl⟩
abbrev main_call0_call7_v10 : Ref sig .tc := ⟨.hbm, 157, rfl⟩
abbrev main_call0_call7_v11 : Ref sig .tc := ⟨.hbm, 158, rfl⟩
abbrev main_call0_call7_c_3 : Ref sig .tc := ⟨.hbm, 159, rfl⟩
abbrev main_call0_call7_v12 : Ref sig .tc := ⟨.hbm, 160, rfl⟩
abbrev main_call0_call7_v13 : Ref sig .tc := ⟨.hbm, 161, rfl⟩
abbrev main_call0_call7_v14 : Ref sig .tc := ⟨.hbm, 162, rfl⟩
abbrev main_call0_call7_cst : Ref sig .tc := ⟨.hbm, 163, rfl⟩
abbrev main_call0_call7_v15 : Ref sig .tc := ⟨.hbm, 164, rfl⟩
abbrev main_call0_v41 : Ref sig .tc := ⟨.hbm, 165, rfl⟩
abbrev main_call0_v42 : Ref sig .tc := ⟨.hbm, 166, rfl⟩
abbrev main_call0_v43 : Ref sig .tc := ⟨.hbm, 167, rfl⟩
abbrev main_call0_v44 : Ref sig .tc := ⟨.hbm, 168, rfl⟩
abbrev main_call0_v45 : Ref sig .tc := ⟨.hbm, 169, rfl⟩
abbrev main_v0 : Ref sig .tc := ⟨.hbm, 170, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S512x1024x2_S512x1024x1_0_0_0 : S512x1024x2.Slices ![0, 0, 0] S512x1024x1
  shapeCasts_S512x1024x1_S512x1024 : S512x1024x1.ShapeCasts S512x1024
  slices_S512x1024x2_S512x1024x1_0_0_1 : S512x1024x2.Slices ![0, 0, 1] S512x1024x1
  bcast_S_S512x1024 : S_.BroadcastsInDim S512x1024 (![] : Fin 0 → Fin S512x1024.rank)
  transposes_S4x16x512x1024_S512x1024x4x16_2_3_0_1 : S4x16x512x1024.Transposes [2, 3, 0, 1] S512x1024x4x16
  shapeCasts_S512x1024x4x16_S524288x64 : S512x1024x4x16.ShapeCasts S524288x64
  shapeCasts_S512x1024_S524288 : S512x1024.ShapeCasts S524288
  bcast_S_S524288 : S_.BroadcastsInDim S524288 (![] : Fin 0 → Fin S524288.rank)
  bcast_S524288_S524288x1_0 : S524288.BroadcastsInDim S524288x1 (![0] : Fin 1 → Fin S524288x1.rank)
  bcast_S_S524288x1 : S_.BroadcastsInDim S524288x1 (![] : Fin 0 → Fin S524288x1.rank)
  bcast_S1_S1x1_1 : S1.BroadcastsInDim S1x1 (![1] : Fin 1 → Fin S1x1.rank)
  bcast_S1x1_S524288x1_0_1 : S1x1.BroadcastsInDim S524288x1 (![0, 1] : Fin 2 → Fin S524288x1.rank)
  reducesTo_S524288x1_S524288_d1 : S524288x1.ReducesTo [1] S524288
  h_S_ : 0 < S_.numel
  bcast_S524288_S524288x64_0 : S524288.BroadcastsInDim S524288x64 (![0] : Fin 1 → Fin S524288x64.rank)
  bcast_S_S524288x64 : S_.BroadcastsInDim S524288x64 (![] : Fin 0 → Fin S524288x64.rank)
  shapeCasts_S512x1024_S524288x1 : S512x1024.ShapeCasts S524288x1
  shapeCasts_S524288x64_S512x1024x4x16 : S524288x64.ShapeCasts S512x1024x4x16
  transposes_S512x1024x4x16_S4x16x512x1024_2_3_0_1 : S512x1024x4x16.Transposes [2, 3, 0, 1] S4x16x512x1024
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  broadcasts_S4096x1_S4096x64 : S4096x1.Broadcasts S4096x64
  gather_S524288x64_S524288x1_S524288x64_1_0_n_n_0_1_164_wf : GatherDims.WF S524288x64 S524288x1 S524288x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S524288x64.size a
  hwx0_0 : ∀ i : grid0.Coords, EltTy.bits .f32 = 32 ∨ (Rect.block (s := S524288x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S524288x64.size a
  hwx0_1 : ∀ i : grid0.Coords, EltTy.bits .f32 = 32 ∨ (Rect.block (s := S524288x64) S4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S524288x64.size a
  hwx0_2 : ∀ i : grid0.Coords, EltTy.bits .f32 = 32 ∨ (Rect.block (s := S524288x64) S4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x64.size a ≤ S524288x64.size a
  hwx0_3 : ∀ i : grid0.Coords, EltTy.bits .f32 = 32 ∨ (Rect.block (s := S524288x64) S4096x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x1.size a ≤ S524288x1.size a
  hwx0_4 : ∀ i : grid0.Coords, EltTy.bits .f32 = 32 ∨ (Rect.block (s := S524288x1) S4096x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x1.size a ≤ S524288x1.size a
  hwx0_5 : ∀ i : grid0.Coords, EltTy.bits .f32 = 32 ∨ (Rect.block (s := S524288x1) S4096x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x64.size a ≤ S524288x64.size a
  hwx0_6 : ∀ i : grid0.Coords, EltTy.bits .f32 = 32 ∨ (Rect.block (s := S524288x64) S4096x64.size (cc0_transform_6 i) (hinb0_6 i)).WholeWords (EltTy.packing .f32)

variable [Facts₀]

def gather_S524288x64_S524288x1_S524288x64_1_0_n_n_0_1_164 : GatherDims S524288x64 S524288x1 S524288x64 where
  offsetDims := [1]
  collapsedSliceDims := [0]
  operandBatchingDims := []
  startIndicesBatchingDims := []
  startIndexMap := [0]
  indexVectorDim := 1
  sliceSizes := ![1, 64]
  wf := gather_S524288x64_S524288x1_S524288x64_1_0_n_n_0_1_164_wf

abbrev win0_0 : Pipeline.Window sig grid0 :=
  Pipeline.Window.ofSpec (Memref.whole main_call0_v26) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v31) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v36) S4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v41) S4096x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v42) S4096x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v43) S4096x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v44) S4096x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x16x512x1024 : Shape := ⟨4, ![4, 16, 512, 1024]⟩
abbrev S512x1024x2 : Shape := ⟨3, ![512, 1024, 2]⟩
abbrev S512x1024x1 : Shape := ⟨3, ![512, 1024, 1]⟩
abbrev S512x1024 : Shape := ⟨2, ![512, 1024]⟩
abbrev S_ : Shape := ⟨0, ![]⟩
abbrev S4x16x524288 : Shape := ⟨3, ![4, 16, 524288]⟩
abbrev S524288 : Shape := ⟨1, ![524288]⟩
abbrev S524288x1 : Shape := ⟨2, ![524288, 1]⟩
abbrev S1 : Shape := ⟨1, ![1]⟩
abbrev S1x1 : Shape := ⟨2, ![1, 1]⟩
abbrev S1x1x524288 : Shape := ⟨3, ![1, 1, 524288]⟩

abbrev nBuf : Space → Nat
  | .hbm => 201
  | .vmem => 0
  | .smem => 0
  | _ => 0

abbrev hbmTy0_0 (i : Nat) : BufTy := match i % 128 with
  | 0 => ⟨S4x16x512x1024, .f32⟩
  | 1 => ⟨S512x1024x2, .f32⟩
  | 2 => ⟨S512x1024x1, .f32⟩
  | 3 => ⟨S512x1024, .f32⟩
  | 4 => ⟨S512x1024x1, .f32⟩
  | 5 => ⟨S512x1024, .f32⟩
  | 6 => ⟨S512x1024, .f32⟩
  | 7 => ⟨S512x1024, .f32⟩
  | 8 => ⟨S512x1024, .f32⟩
  | 9 => ⟨S512x1024, .f32⟩
  | 10 => ⟨S512x1024, .i32⟩
  | 11 => ⟨S_, .i32⟩
  | 12 => ⟨S_, .i32⟩
  | 13 => ⟨S_, .i32⟩
  | 14 => ⟨S512x1024, .i32⟩
  | 15 => ⟨S512x1024, .i32⟩
  | 16 => ⟨S_, .i32⟩
  | 17 => ⟨S512x1024, .i32⟩
  | 18 => ⟨S512x1024, .i32⟩
  | 19 => ⟨S512x1024, .i32⟩
  | 20 => ⟨S_, .i32⟩
  | 21 => ⟨S_, .i32⟩
  | 22 => ⟨S_, .i32⟩
  | 23 => ⟨S512x1024, .i32⟩
  | 24 => ⟨S512x1024, .i32⟩
  | 25 => ⟨S_, .i32⟩
  | 26 => ⟨S512x1024, .i32⟩
  | 27 => ⟨S512x1024, .i32⟩
  | 28 => ⟨S512x1024, .i32⟩
  | 29 => ⟨S_, .i32⟩
  | 30 => ⟨S512x1024, .i32⟩
  | 31 => ⟨S512x1024, .i32⟩
  | 32 => ⟨S_, .i32⟩
  | 33 => ⟨S_, .i32⟩
  | 34 => ⟨S_, .i32⟩
  | 35 => ⟨S512x1024, .i32⟩
  | 36 => ⟨S512x1024, .i32⟩
  | 37 => ⟨S_, .i32⟩
  | 38 => ⟨S512x1024, .i32⟩
  | 39 => ⟨S512x1024, .i32⟩
  | 40 => ⟨S512x1024, .i32⟩
  | 41 => ⟨S_, .i32⟩
  | 42 => ⟨S512x1024, .i32⟩
  | 43 => ⟨S512x1024, .i32⟩
  | 44 => ⟨S_, .i32⟩
  | 45 => ⟨S_, .i32⟩
  | 46 => ⟨S_, .i32⟩
  | 47 => ⟨S512x1024, .i32⟩
  | 48 => ⟨S512x1024, .i32⟩
  | 49 => ⟨S_, .i32⟩
  | 50 => ⟨S512x1024, .i32⟩
  | 51 => ⟨S512x1024, .i32⟩
  | 52 => ⟨S4x16x524288, .f32⟩
  | 53 => ⟨S_, .f32⟩
  | 54 => ⟨S512x1024, .f32⟩
  | 55 => ⟨S512x1024, .f32⟩
  | 56 => ⟨S_, .f32⟩
  | 57 => ⟨S512x1024, .f32⟩
  | 58 => ⟨S512x1024, .f32⟩
  | 59 => ⟨S512x1024, .f32⟩
  | 60 => ⟨S524288, .f32⟩
  | 61 => ⟨S_, .f32⟩
  | 62 => ⟨S512x1024, .f32⟩
  | 63 => ⟨S512x1024, .f32⟩
  | 64 => ⟨S512x1024, .f32⟩
  | 65 => ⟨S524288, .f32⟩
  | 66 => ⟨S_, .f32⟩
  | 67 => ⟨S512x1024, .f32⟩
  | 68 => ⟨S512x1024, .f32⟩
  | 69 => ⟨S512x1024, .f32⟩
  | 70 => ⟨S524288, .f32⟩
  | 71 => ⟨S512x1024, .f32⟩
  | 72 => ⟨S524288, .f32⟩
  | 73 => ⟨S_, .i32⟩
  | 74 => ⟨S512x1024, .i32⟩
  | 75 => ⟨S512x1024, .i32⟩
  | 76 => ⟨S512x1024, .i32⟩
  | 77 => ⟨S524288, .i32⟩
  | 78 => ⟨S_, .i32⟩
  | 79 => ⟨S524288, .i32⟩
  | 80 => ⟨S524288, .i1⟩
  | 81 => ⟨S_, .i32⟩
  | 82 => ⟨S524288, .i32⟩
  | 83 => ⟨S524288, .i32⟩
  | 84 => ⟨S524288, .i32⟩
  | 85 => ⟨S524288x1, .i32⟩
  | 86 => ⟨S1, .i32⟩
  | 87 => ⟨S_, .i32⟩
  | 88 => ⟨S524288x1, .i32⟩
  | 89 => ⟨S524288x1, .i1⟩
  | 90 => ⟨S1x1, .i32⟩
  | 91 => ⟨S524288x1, .i32⟩
  | 92 => ⟨S524288x1, .i1⟩
  | 93 => ⟨S524288x1, .i1⟩
  | 94 => ⟨S_, .i1⟩
  | 95 => ⟨S524288, .i1⟩
  | 96 => ⟨S4x16x524288, .f32⟩
  | 97 => ⟨S4x16x524288, .i1⟩
  | 98 => ⟨S_, .f32⟩
  | 99 => ⟨S4x16x524288, .f32⟩
  | 100 => ⟨S4x16x524288, .f32⟩
  | 101 => ⟨S1x1x524288, .f32⟩
  | 102 => ⟨S4x16x524288, .f32⟩
  | 103 => ⟨S4x16x524288, .f32⟩
  | 104 => ⟨S_, .i32⟩
  | 105 => ⟨S512x1024, .i32⟩
  | 106 => ⟨S512x1024, .i32⟩
  | 107 => ⟨S512x1024, .i32⟩
  | 108 => ⟨S524288, .i32⟩
  | 109 => ⟨S_, .i32⟩
  | 110 => ⟨S524288, .i32⟩
  | 111 => ⟨S524288, .i1⟩
  | 112 => ⟨S_, .i32⟩
  | 113 => ⟨S524288, .i32⟩
  | 114 => ⟨S524288, .i32⟩
  | 115 => ⟨S524288, .i32⟩
  | 116 => ⟨S524288x1, .i32⟩
  | 117 => ⟨S1, .i32⟩
  | 118 => ⟨S_, .i32⟩
  | 119 => ⟨S524288x1, .i32⟩
  | 120 => ⟨S524288x1, .i1⟩
  | 121 => ⟨S1x1, .i32⟩
  | 122 => ⟨S524288x1, .i32⟩
  | 123 => ⟨S524288x1, .i1⟩
  | 124 => ⟨S524288x1, .i1⟩
  | 125 => ⟨S_, .i1⟩
  | 126 => ⟨S524288, .i1⟩
  | 127 => ⟨S4x16x524288, .f32⟩
  | _ => ⟨S4x16x512x1024, .f32⟩

abbrev hbmTy0_1 (i : Nat) : BufTy := match i % 128 with
  | 0 => ⟨S4x16x524288, .i1⟩
  | 1 => ⟨S_, .f32⟩
  | 2 => ⟨S4x16x524288, .f32⟩
  | 3 => ⟨S4x16x524288, .f32⟩
  | 4 => ⟨S1x1x524288, .f32⟩
  | 5 => ⟨S4x16x524288, .f32⟩
  | 6 => ⟨S4x16x524288, .f32⟩
  | 7 => ⟨S4x16x524288, .f32⟩
  | 8 => ⟨S_, .i32⟩
  | 9 => ⟨S512x1024, .i32⟩
  | 10 => ⟨S512x1024, .i32⟩
  | 11 => ⟨S512x1024, .i32⟩
  | 12 => ⟨S524288, .i32⟩
  | 13 => ⟨S_, .i32⟩
  | 14 => ⟨S524288, .i32⟩
  | 15 => ⟨S524288, .i1⟩
  | 16 => ⟨S_, .i32⟩
  | 17 => ⟨S524288, .i32⟩
  | 18 => ⟨S524288, .i32⟩
  | 19 => ⟨S524288, .i32⟩
  | 20 => ⟨S524288x1, .i32⟩
  | 21 => ⟨S1, .i32⟩
  | 22 => ⟨S_, .i32⟩
  | 23 => ⟨S524288x1, .i32⟩
  | 24 => ⟨S524288x1, .i1⟩
  | 25 => ⟨S1x1, .i32⟩
  | 26 => ⟨S524288x1, .i32⟩
  | 27 => ⟨S524288x1, .i1⟩
  | 28 => ⟨S524288x1, .i1⟩
  | 29 => ⟨S_, .i1⟩
  | 30 => ⟨S524288, .i1⟩
  | 31 => ⟨S4x16x524288, .f32⟩
  | 32 => ⟨S4x16x524288, .i1⟩
  | 33 => ⟨S_, .f32⟩
  | 34 => ⟨S4x16x524288, .f32⟩
  | 35 => ⟨S4x16x524288, .f32⟩
  | 36 => ⟨S1x1x524288, .f32⟩
  | 37 => ⟨S4x16x524288, .f32⟩
  | 38 => ⟨S4x16x524288, .f32⟩
  | 39 => ⟨S4x16x524288, .f32⟩
  | 40 => ⟨S_, .i32⟩
  | 41 => ⟨S512x1024, .i32⟩
  | 42 => ⟨S512x1024, .i32⟩
  | 43 => ⟨S512x1024, .i32⟩
  | 44 => ⟨S524288, .i32⟩
  | 45 => ⟨S_, .i32⟩
  | 46 => ⟨S524288, .i32⟩
  | 47 => ⟨S524288, .i1⟩
  | 48 => ⟨S_, .i32⟩
  | 49 => ⟨S524288, .i32⟩
  | 50 => ⟨S524288, .i32⟩
  | 51 => ⟨S524288, .i32⟩
  | 52 => ⟨S524288x1, .i32⟩
  | 53 => ⟨S1, .i32⟩
  | 54 => ⟨S_, .i32⟩
  | 55 => ⟨S524288x1, .i32⟩
  | 56 => ⟨S524288x1, .i1⟩
  | 57 => ⟨S1x1, .i32⟩
  | 58 => ⟨S524288x1, .i32⟩
  | 59 => ⟨S524288x1, .i1⟩
  | 60 => ⟨S524288x1, .i1⟩
  | 61 => ⟨S_, .i1⟩
  | 62 => ⟨S524288, .i1⟩
  | 63 => ⟨S4x16x524288, .f32⟩
  | 64 => ⟨S4x16x524288, .i1⟩
  | 65 => ⟨S_, .f32⟩
  | 66 => ⟨S4x16x524288, .f32⟩
  | 67 => ⟨S4x16x524288, .f32⟩
  | 68 => ⟨S1x1x524288, .f32⟩
  | 69 => ⟨S4x16x524288, .f32⟩
  | 70 => ⟨S4x16x524288, .f32⟩
  | 71 => ⟨S4x16x524288, .f32⟩
  | 72 => ⟨S4x16x512x1024, .f32⟩
  | _ => ⟨S4x16x512x1024, .f32⟩

abbrev hbmTy (i : Nat) : BufTy := match i / 128 with
  | 0 => hbmTy0_0 i
  | 1 => hbmTy0_1 i
  | _ => ⟨S4x16x512x1024, .f32⟩

abbrev bufTy : (tb : Table) → Fin (tcTables nBuf tb) → BufTy
  | .hbm, ⟨i, _⟩ => hbmTy i
  | _, _ => ⟨S4x16x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_c_2 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v11 : Ref sig .tc := ⟨.hbm, 27, rfl⟩
abbrev main_v12 : Ref sig .tc := ⟨.hbm, 28, rfl⟩
abbrev main_c_3 : Ref sig .tc := ⟨.hbm, 29, rfl⟩
abbrev main_v13 : Ref sig .tc := ⟨.hbm, 30, rfl⟩
abbrev main_v14 : Ref sig .tc := ⟨.hbm, 31, rfl⟩
abbrev main_c_4 : Ref sig .tc := ⟨.hbm, 32, rfl⟩
abbrev main_c_5 : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_v15 : Ref sig .tc := ⟨.hbm, 39, rfl⟩
abbrev main_v16 : Ref sig .tc := ⟨.hbm, 40, rfl⟩
abbrev main_c_6 : Ref sig .tc := ⟨.hbm, 41, rfl⟩
abbrev main_v17 : Ref sig .tc := ⟨.hbm, 42, rfl⟩
abbrev main_v18 : Ref sig .tc := ⟨.hbm, 43, rfl⟩
abbrev main_c_7 : Ref sig .tc := ⟨.hbm, 44, rfl⟩
abbrev main_c_8 : Ref sig .tc := ⟨.hbm, 45, rfl⟩
abbrev main_call3_v0 : Ref sig .tc := ⟨.hbm, 46, rfl⟩
abbrev main_call3_v1 : Ref sig .tc := ⟨.hbm, 47, rfl⟩
abbrev main_call3_v2 : Ref sig .tc := ⟨.hbm, 48, rfl⟩
abbrev main_call3_v3 : Ref sig .tc := ⟨.hbm, 49, rfl⟩
abbrev main_call3_v4 : Ref sig .tc := ⟨.hbm, 50, rfl⟩
abbrev main_v19 : Ref sig .tc := ⟨.hbm, 51, rfl⟩
abbrev main_v20 : Ref sig .tc := ⟨.hbm, 52, rfl⟩
abbrev main_cst : Ref sig .tc := ⟨.hbm, 53, rfl⟩
abbrev main_v21 : Ref sig .tc := ⟨.hbm, 54, rfl⟩
abbrev main_v22 : Ref sig .tc := ⟨.hbm, 55, rfl⟩
abbrev main_cst_9 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_cst_10 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_cst_11 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_c_12 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_call4_c : Ref sig .tc := ⟨.hbm, 78, rfl⟩
abbrev main_call4_v0 : Ref sig .tc := ⟨.hbm, 79, rfl⟩
abbrev main_call4_v1 : Ref sig .tc := ⟨.hbm, 80, rfl⟩
abbrev main_call4_c_0 : Ref sig .tc := ⟨.hbm, 81, rfl⟩
abbrev main_call4_v2 : Ref sig .tc := ⟨.hbm, 82, rfl⟩
abbrev main_call4_v3 : Ref sig .tc := ⟨.hbm, 83, rfl⟩
abbrev main_call4_v4 : Ref sig .tc := ⟨.hbm, 84, rfl⟩
abbrev main_call4_v5 : Ref sig .tc := ⟨.hbm, 85, rfl⟩
abbrev main_call4_c_1 : Ref sig .tc := ⟨.hbm, 86, rfl⟩
abbrev main_call4_c_2 : Ref sig .tc := ⟨.hbm, 87, rfl⟩
abbrev main_call4_v6 : Ref sig .tc := ⟨.hbm, 88, rfl⟩
abbrev main_call4_v7 : Ref sig .tc := ⟨.hbm, 89, rfl⟩
abbrev main_call4_v8 : Ref sig .tc := ⟨.hbm, 90, rfl⟩
abbrev main_call4_v9 : Ref sig .tc := ⟨.hbm, 91, rfl⟩
abbrev main_call4_v10 : Ref sig .tc := ⟨.hbm, 92, rfl⟩
abbrev main_call4_v11 : Ref sig .tc := ⟨.hbm, 93, rfl⟩
abbrev main_call4_c_3 : Ref sig .tc := ⟨.hbm, 94, rfl⟩
abbrev main_call4_v12 : Ref sig .tc := ⟨.hbm, 95, rfl⟩
abbrev main_call4_v13 : Ref sig .tc := ⟨.hbm, 96, rfl⟩
abbrev main_call4_v14 : Ref sig .tc := ⟨.hbm, 97, rfl⟩
abbrev main_call4_cst : Ref sig .tc := ⟨.hbm, 98, rfl⟩
abbrev main_call4_v15 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_c_13 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_call5_c : Ref sig .tc := ⟨.hbm, 109, rfl⟩
abbrev main_call5_v0 : Ref sig .tc := ⟨.hbm, 110, rfl⟩
abbrev main_call5_v1 : Ref sig .tc := ⟨.hbm, 111, rfl⟩
abbrev main_call5_c_0 : Ref sig .tc := ⟨.hbm, 112, rfl⟩
abbrev main_call5_v2 : Ref sig .tc := ⟨.hbm, 113, rfl⟩
abbrev main_call5_v3 : Ref sig .tc := ⟨.hbm, 114, rfl⟩
abbrev main_call5_v4 : Ref sig .tc := ⟨.hbm, 115, rfl⟩
abbrev main_call5_v5 : Ref sig .tc := ⟨.hbm, 116, rfl⟩
abbrev main_call5_c_1 : Ref sig .tc := ⟨.hbm, 117, rfl⟩
abbrev main_call5_c_2 : Ref sig .tc := ⟨.hbm, 118, rfl⟩
abbrev main_call5_v6 : Ref sig .tc := ⟨.hbm, 119, rfl⟩
abbrev main_call5_v7 : Ref sig .tc := ⟨.hbm, 120, rfl⟩
abbrev main_call5_v8 : Ref sig .tc := ⟨.hbm, 121, rfl⟩
abbrev main_call5_v9 : Ref sig .tc := ⟨.hbm, 122, rfl⟩
abbrev main_call5_v10 : Ref sig .tc := ⟨.hbm, 123, rfl⟩
abbrev main_call5_v11 : Ref sig .tc := ⟨.hbm, 124, rfl⟩
abbrev main_call5_c_3 : Ref sig .tc := ⟨.hbm, 125, rfl⟩
abbrev main_call5_v12 : Ref sig .tc := ⟨.hbm, 126, rfl⟩
abbrev main_call5_v13 : Ref sig .tc := ⟨.hbm, 127, rfl⟩
abbrev main_call5_v14 : Ref sig .tc := ⟨.hbm, 128, rfl⟩
abbrev main_call5_cst : Ref sig .tc := ⟨.hbm, 129, rfl⟩
abbrev main_call5_v15 : Ref sig .tc := ⟨.hbm, 130, rfl⟩
abbrev main_v49 : Ref sig .tc := ⟨.hbm, 131, rfl⟩
abbrev main_v50 : Ref sig .tc := ⟨.hbm, 132, rfl⟩
abbrev main_v51 : Ref sig .tc := ⟨.hbm, 133, rfl⟩
abbrev main_v52 : Ref sig .tc := ⟨.hbm, 134, rfl⟩
abbrev main_v53 : Ref sig .tc := ⟨.hbm, 135, rfl⟩
abbrev main_c_14 : Ref sig .tc := ⟨.hbm, 136, rfl⟩
abbrev main_v54 : Ref sig .tc := ⟨.hbm, 137, rfl⟩
abbrev main_v55 : Ref sig .tc := ⟨.hbm, 138, rfl⟩
abbrev main_v56 : Ref sig .tc := ⟨.hbm, 139, rfl⟩
abbrev main_v57 : Ref sig .tc := ⟨.hbm, 140, rfl⟩
abbrev main_call6_c : Ref sig .tc := ⟨.hbm, 141, rfl⟩
abbrev main_call6_v0 : Ref sig .tc := ⟨.hbm, 142, rfl⟩
abbrev main_call6_v1 : Ref sig .tc := ⟨.hbm, 143, rfl⟩
abbrev main_call6_c_0 : Ref sig .tc := ⟨.hbm, 144, rfl⟩
abbrev main_call6_v2 : Ref sig .tc := ⟨.hbm, 145, rfl⟩
abbrev main_call6_v3 : Ref sig .tc := ⟨.hbm, 146, rfl⟩
abbrev main_call6_v4 : Ref sig .tc := ⟨.hbm, 147, rfl⟩
abbrev main_call6_v5 : Ref sig .tc := ⟨.hbm, 148, rfl⟩
abbrev main_call6_c_1 : Ref sig .tc := ⟨.hbm, 149, rfl⟩
abbrev main_call6_c_2 : Ref sig .tc := ⟨.hbm, 150, rfl⟩
abbrev main_call6_v6 : Ref sig .tc := ⟨.hbm, 151, rfl⟩
abbrev main_call6_v7 : Ref sig .tc := ⟨.hbm, 152, rfl⟩
abbrev main_call6_v8 : Ref sig .tc := ⟨.hbm, 153, rfl⟩
abbrev main_call6_v9 : Ref sig .tc := ⟨.hbm, 154, rfl⟩
abbrev main_call6_v10 : Ref sig .tc := ⟨.hbm, 155, rfl⟩
abbrev main_call6_v11 : Ref sig .tc := ⟨.hbm, 156, rfl⟩
abbrev main_call6_c_3 : Ref sig .tc := ⟨.hbm, 157, rfl⟩
abbrev main_call6_v12 : Ref sig .tc := ⟨.hbm, 158, rfl⟩
abbrev main_call6_v13 : Ref sig .tc := ⟨.hbm, 159, rfl⟩
abbrev main_call6_v14 : Ref sig .tc := ⟨.hbm, 160, rfl⟩
abbrev main_call6_cst : Ref sig .tc := ⟨.hbm, 161, rfl⟩
abbrev main_call6_v15 : Ref sig .tc := ⟨.hbm, 162, rfl⟩
abbrev main_v58 : Ref sig .tc := ⟨.hbm, 163, rfl⟩
abbrev main_v59 : Ref sig .tc := ⟨.hbm, 164, rfl⟩
abbrev main_v60 : Ref sig .tc := ⟨.hbm, 165, rfl⟩
abbrev main_v61 : Ref sig .tc := ⟨.hbm, 166, rfl⟩
abbrev main_v62 : Ref sig .tc := ⟨.hbm, 167, rfl⟩
abbrev main_c_15 : Ref sig .tc := ⟨.hbm, 168, rfl⟩
abbrev main_v63 : Ref sig .tc := ⟨.hbm, 169, rfl⟩
abbrev main_v64 : Ref sig .tc := ⟨.hbm, 170, rfl⟩
abbrev main_v65 : Ref sig .tc := ⟨.hbm, 171, rfl⟩
abbrev main_v66 : Ref sig .tc := ⟨.hbm, 172, rfl⟩
abbrev main_call7_c : Ref sig .tc := ⟨.hbm, 173, rfl⟩
abbrev main_call7_v0 : Ref sig .tc := ⟨.hbm, 174, rfl⟩
abbrev main_call7_v1 : Ref sig .tc := ⟨.hbm, 175, rfl⟩
abbrev main_call7_c_0 : Ref sig .tc := ⟨.hbm, 176, rfl⟩
abbrev main_call7_v2 : Ref sig .tc := ⟨.hbm, 177, rfl⟩
abbrev main_call7_v3 : Ref sig .tc := ⟨.hbm, 178, rfl⟩
abbrev main_call7_v4 : Ref sig .tc := ⟨.hbm, 179, rfl⟩
abbrev main_call7_v5 : Ref sig .tc := ⟨.hbm, 180, rfl⟩
abbrev main_call7_c_1 : Ref sig .tc := ⟨.hbm, 181, rfl⟩
abbrev main_call7_c_2 : Ref sig .tc := ⟨.hbm, 182, rfl⟩
abbrev main_call7_v6 : Ref sig .tc := ⟨.hbm, 183, rfl⟩
abbrev main_call7_v7 : Ref sig .tc := ⟨.hbm, 184, rfl⟩
abbrev main_call7_v8 : Ref sig .tc := ⟨.hbm, 185, rfl⟩
abbrev main_call7_v9 : Ref sig .tc := ⟨.hbm, 186, rfl⟩
abbrev main_call7_v10 : Ref sig .tc := ⟨.hbm, 187, rfl⟩
abbrev main_call7_v11 : Ref sig .tc := ⟨.hbm, 188, rfl⟩
abbrev main_call7_c_3 : Ref sig .tc := ⟨.hbm, 189, rfl⟩
abbrev main_call7_v12 : Ref sig .tc := ⟨.hbm, 190, rfl⟩
abbrev main_call7_v13 : Ref sig .tc := ⟨.hbm, 191, rfl⟩
abbrev main_call7_v14 : Ref sig .tc := ⟨.hbm, 192, rfl⟩
abbrev main_call7_cst : Ref sig .tc := ⟨.hbm, 193, rfl⟩
abbrev main_call7_v15 : Ref sig .tc := ⟨.hbm, 194, rfl⟩
abbrev main_v67 : Ref sig .tc := ⟨.hbm, 195, rfl⟩
abbrev main_v68 : Ref sig .tc := ⟨.hbm, 196, rfl⟩
abbrev main_v69 : Ref sig .tc := ⟨.hbm, 197, rfl⟩
abbrev main_v70 : Ref sig .tc := ⟨.hbm, 198, rfl⟩
abbrev main_v71 : Ref sig .tc := ⟨.hbm, 199, rfl⟩
abbrev main_v72 : Ref sig .tc := ⟨.hbm, 200, rfl⟩

abbrev nD : Nat := 1
abbrev τ : Topo := Topo.v7x

variable {F : FTy → Type} [FloatOps F]

class Facts₀ : Prop where
  slices_S512x1024x2_S512x1024x1_0_0_0 : S512x1024x2.Slices ![0, 0, 0] S512x1024x1
  shapeCasts_S512x1024x1_S512x1024 : S512x1024x1.ShapeCasts S512x1024
  slices_S512x1024x2_S512x1024x1_0_0_1 : S512x1024x2.Slices ![0, 0, 1] S512x1024x1
  bcast_S_S512x1024 : S_.BroadcastsInDim S512x1024 (![] : Fin 0 → Fin S512x1024.rank)
  shapeCasts_S4x16x512x1024_S4x16x524288 : S4x16x512x1024.ShapeCasts S4x16x524288
  shapeCasts_S512x1024_S524288 : S512x1024.ShapeCasts S524288
  bcast_S_S524288 : S_.BroadcastsInDim S524288 (![] : Fin 0 → Fin S524288.rank)
  bcast_S524288_S524288x1_0 : S524288.BroadcastsInDim S524288x1 (![0] : Fin 1 → Fin S524288x1.rank)
  bcast_S_S524288x1 : S_.BroadcastsInDim S524288x1 (![] : Fin 0 → Fin S524288x1.rank)
  bcast_S1_S1x1_1 : S1.BroadcastsInDim S1x1 (![1] : Fin 1 → Fin S1x1.rank)
  bcast_S1x1_S524288x1_0_1 : S1x1.BroadcastsInDim S524288x1 (![0, 1] : Fin 2 → Fin S524288x1.rank)
  reducesTo_S524288x1_S524288_d1 : S524288x1.ReducesTo [1] S524288
  h_S_ : 0 < S_.numel
  bcast_S524288_S4x16x524288_2 : S524288.BroadcastsInDim S4x16x524288 (![2] : Fin 1 → Fin S4x16x524288.rank)
  bcast_S_S4x16x524288 : S_.BroadcastsInDim S4x16x524288 (![] : Fin 0 → Fin S4x16x524288.rank)
  bcast_S524288_S1x1x524288_2 : S524288.BroadcastsInDim S1x1x524288 (![2] : Fin 1 → Fin S1x1x524288.rank)
  bcast_S1x1x524288_S4x16x524288_0_1_2 : S1x1x524288.BroadcastsInDim S4x16x524288 (![0, 1, 2] : Fin 3 → Fin S4x16x524288.rank)
  shapeCasts_S4x16x524288_S4x16x512x1024 : S4x16x524288.ShapeCasts S4x16x512x1024
  gather_S4x16x524288_S524288x1_S4x16x524288_01_2_n_n_2_1_4161_wf : GatherDims.WF S4x16x524288 S524288x1 S4x16x524288 [0, 1] [2] [] [2] [] 1 ![4, 16, 1]

variable [Facts₀]

def gather_S4x16x524288_S524288x1_S4x16x524288_01_2_n_n_2_1_4161 : GatherDims S4x16x524288 S524288x1 S4x16x524288 where
  offsetDims := [0, 1]
  collapsedSliceDims := [2]
  operandBatchingDims := []
  startIndicesBatchingDims := []
  startIndexMap := [2]
  indexVectorDim := 1
  sliceSizes := ![4, 16, 1]
  wf := gather_S4x16x524288_S524288x1_S4x16x524288_01_2_n_n_2_1_4161_wf

class Facts : Prop extends Facts₀ where

variable [Facts]
-- ==== Proof.Spec.lean ====
/-
  Bilinear resampling of an image stack `x : [4, 16, 512, 1024]` at a map of real pixel coordinates
  `smap : [512, 1024, 2]`: for every output pixel `n = (h, w)` the coordinate `(sx, sy) = smap[h, w]` is split into its
  floor and its fractional part `(dx, dy)`; the four neighbouring pixels `(y0|y1, x0|x1)`, clipped into the image, are
  read at their flat positions `y · 1024 + x` in `[0, 524288)` and combined with the weights
  `(1 - dx)(1 - dy)`, `dx (1 - dy)`, `(1 - dx) dy`, `dx dy`.

  This module only NAMES the stages, over literal shapes and at the ideal instance (extended reals, exact
  operations). Two arrangements are spelt out: the CHANNELS-MINOR one — the image re-laid as a table
  `[524288, 64]` of pixel rows, a row gathered per output pixel and neighbour, the mix taken row by row, the
  result re-laid back — and the CHANNELS-MAJOR one — the image as `[4, 16, 524288]`, an entry gathered along the last
  axis, the weights broadcast over the two leading axes. That the two are the same array is proved elsewhere.
-/
import Idealize.ShloMosaic.PureOps
import Idealize.ShloMosaic.PureOps.Ideal

noncomputable section

namespace Cert.Resample

open Idealize.ShloMosaic

/-! ## Shapes -/

abbrev SX : Shape := ⟨4, ![4, 16, 512, 1024]⟩
abbrev SM : Shape := ⟨3, ![512, 1024, 2]⟩
abbrev SM1 : Shape := ⟨3, ![512, 1024, 1]⟩
abbrev SP : Shape := ⟨2, ![512, 1024]⟩
abbrev S0 : Shape := ⟨0, ![]⟩
abbrev ST : Shape := ⟨4, ![512, 1024, 4, 16]⟩
abbrev SNK : Shape := ⟨2, ![524288, 64]⟩
abbrev SN : Shape := ⟨1, ![524288]⟩
abbrev SN1 : Shape := ⟨2, ![524288, 1]⟩
abbrev S1 : Shape := ⟨1, ![1]⟩
abbrev S11 : Shape := ⟨2, ![1, 1]⟩
abbrev SBCN : Shape := ⟨3, ![4, 16, 524288]⟩
abbrev S11N : Shape := ⟨3, ![1, 1, 524288]⟩

/-! ## The shape relations the operations ask -/

theorem slice0 : SM.Slices ![0, 0, 0] SM1 := by decide
theorem slice1 : SM.Slices ![0, 0, 1] SM1 := by decide
theorem cast_SM1_SP : SM1.ShapeCasts SP := by decide
theorem bc_S0_SP : S0.BroadcastsInDim SP (![] : Fin 0 → Fin SP.rank) := by decide
theorem cast_SP_SN : SP.ShapeCasts SN := by decide
theorem cast_SP_SN1 : SP.ShapeCasts SN1 := by decide
theorem bc_S0_SN : S0.BroadcastsInDim SN (![] : Fin 0 → Fin SN.rank) := by decide
theorem bc_SN_SN1 : SN.BroadcastsInDim SN1 (![0] : Fin 1 → Fin SN1.rank) := by decide
theorem bc_S0_SN1 : S0.BroadcastsInDim SN1 (![] : Fin 0 → Fin SN1.rank) := by decide
theorem bc_S1_S11 : S1.BroadcastsInDim S11 (![1] : Fin 1 → Fin S11.rank) := by decide
theorem bc_S11_SN1 : S11.BroadcastsInDim SN1 (![0, 1] : Fin 2 → Fin SN1.rank) := by decide
theorem red_SN1_SN : SN1.ReducesTo [1] SN := by decide
theorem pos_S0 : 0 < S0.numel := by decide
theorem tr_SX_ST : SX.Transposes [2, 3, 0, 1] ST := by decide
theorem tr_ST_SX : ST.Transposes [2, 3, 0, 1] SX := by decide
theorem cast_ST_SNK : ST.ShapeCasts SNK := by decide
theorem cast_SNK_ST : SNK.ShapeCasts ST := by decide
theorem cast_SX_SBCN : SX.ShapeCasts SBCN := by decide
theorem cast_SBCN_SX : SBCN.ShapeCasts SX := by decide
theorem bc_SN_SNK : SN.BroadcastsInDim SNK (![0] : Fin 1 → Fin SNK.rank) := by decide
theorem bc_S0_SNK : S0.BroadcastsInDim SNK (![] : Fin 0 → Fin SNK.rank) := by decide
theorem bc_SN_SBCN : SN.BroadcastsInDim SBCN (![2] : Fin 1 → Fin SBCN.rank) := by decide
theorem bc_S0_SBCN : S0.BroadcastsInDim SBCN (![] : Fin 0 → Fin SBCN.rank) := by decide
theorem bc_SN_S11N : SN.BroadcastsInDim S11N (![2] : Fin 1 → Fin S11N.rank) := by decide
theorem bc_S11N_SBCN : S11N.BroadcastsInDim SBCN (![0, 1, 2] : Fin 3 → Fin SBCN.rank) := by decide
theorem wf_rows : GatherDims.WF SNK SN1 SNK [1] [0] [] [0] [] 1 ![1, 64] := by decide
theorem wf_last : GatherDims.WF SBCN SN1 SBCN [0, 1] [2] [] [2] [] 1 ![4, 16, 1] := by decide

/-- A row of the table `[524288, 64]` per start index: the gather of whole rows. -/
def rowsDims : GatherDims SNK SN1 SNK where
  offsetDims := [1]
  collapsedSliceDims := [0]
  operandBatchingDims := []
  startIndicesBatchingDims := []
  startIndexMap := [0]
  indexVectorDim := 1
  sliceSizes := ![1, 64]
  wf := wf_rows

/-- An entry along the last axis of `[4, 16, 524288]` per start index, for every pair of leading coordinates. -/
def lastDims : GatherDims SBCN SN1 SBCN where
  offsetDims := [0, 1]
  collapsedSliceDims := [2]
  operandBatchingDims := []
  startIndicesBatchingDims := []
  startIndexMap := [2]
  indexVectorDim := 1
  sliceSizes := ![4, 16, 1]
  wf := wf_last

/-! ## The coordinates, their fractional parts and the four neighbours -/

/-- The map's `x` coordinates, one per output pixel. -/
def sx (sm : FVec Ideal SM .f32) : FVec Ideal SP .f32 := shapeCast SP (extractStridedSlice SM1 ![0, 0, 0] sm slice0) cast_SM1_SP
/-- The map's `y` coordinates. -/
def sy (sm : FVec Ideal SM .f32) : FVec Ideal SP .f32 := shapeCast SP (extractStridedSlice SM1 ![0, 0, 1] sm slice1) cast_SM1_SP
/-- The fractional offsets. -/
def dx (sm : FVec Ideal SM .f32) : FVec Ideal SP .f32 := subf (sx sm) (Host.floor (sx sm))
def dy (sm : FVec Ideal SM .f32) : FVec Ideal SP .f32 := subf (sy sm) (Host.floor (sy sm))

/-- An integer grid clipped into `[lo, hi]`: `min hi (max lo v)`, the bounds broadcast. -/
def clip (v : IVec SP 32) (lo hi : BitVec 32) : IVec SP 32 :=
  minsi (broadcastInDim SP ![] bc_S0_SP (id (constantI S0 32 hi))) (maxsi (broadcastInDim SP ![] bc_S0_SP (id (constantI S0 32 lo))) v)

def x0 (sm : FVec Ideal SM .f32) : IVec SP 32 := clip (fptosi 32 (Host.floor (sx sm))) 0#32 1023#32
def y0 (sm : FVec Ideal SM .f32) : IVec SP 32 := clip (fptosi 32 (Host.floor (sy sm))) 0#32 511#32
def x1 (sm : FVec Ideal SM .f32) : IVec SP 32 :=
  clip (addi (fptosi 32 (Host.floor (sx sm))) (broadcastInDim SP ![] bc_S0_SP (constantI S0 32 1#32))) 0#32 1023#32
def y1 (sm : FVec Ideal SM .f32) : IVec SP 32 :=
  clip (addi (fptosi 32 (Host.floor (sy sm))) (broadcastInDim SP ![] bc_S0_SP (constantI S0 32 1#32))) 0#32 511#32

/-- The flat position `y · 1024 + x` of a neighbour, per output pixel in row-major order. -/
def lin (y x : IVec SP 32) : IVec SN 32 :=
  shapeCast SN (addi (muli y (broadcastInDim SP ![] bc_S0_SP (constantI S0 32 1024#32))) x) cast_SP_SN

def idx00 (sm : FVec Ideal SM .f32) : IVec SN 32 := lin (y0 sm) (x0 sm)
def idx10 (sm : FVec Ideal SM .f32) : IVec SN 32 := lin (y0 sm) (x1 sm)
def idx01 (sm : FVec Ideal SM .f32) : IVec SN 32 := lin (y1 sm) (x0 sm)
def idx11 (sm : FVec Ideal SM .f32) : IVec SN 32 := lin (y1 sm) (x1 sm)

/-! ## Taking entries at integer positions: a negative position counts from the end, one out of range reads as the fill value -/

/-- The positions with the negative ones wrapped, as a column `[524288, 1]` of start indices. -/
def col (idx : IVec SN 32) : IVec SN1 32 :=
  broadcastInDim SN1 ![0] bc_SN_SN1
    (select (cmpi .slt idx (broadcastInDim SN ![] bc_S0_SN (constantI S0 32 0#32)))
      (addi idx (broadcastInDim SN ![] bc_S0_SN (constantI S0 32 524288#32))) idx)

/-- Which positions are in range `[0, 524287]` after wrapping. -/
def ok (idx : IVec SN 32) : IVec SN 1 :=
  Host.reduce IntOp.andi
    (andi (cmpi .sge (col idx) (broadcastInDim SN1 ![] bc_S0_SN1 (constantI S0 32 0#32)))
      (cmpi .sle (col idx) (broadcastInDim SN1 ![0, 1] bc_S11_SN1 (broadcastInDim S11 ![1] bc_S1_S11 (constantI S1 32 524287#32)))))
    (constantI S0 1 1#1) red_SN1_SN pos_S0

/-- Rows of a table `[524288, 64]` at the positions: the gathered row where the position is in range, the fill value elsewhere. -/
def takeRows (tbl : FVec Ideal SNK .f32) (idx : IVec SN 32) : FVec Ideal SNK .f32 :=
  select (broadcastInDim SNK ![0] bc_SN_SNK (ok idx)) (Host.gather rowsDims tbl (col idx))
    (broadcastInDim SNK ![] bc_S0_SNK (constant S0 .f32 0x7FC00000#32))

/-- Entries along the last axis of `[4, 16, 524288]` at the positions, likewise. -/
def takeLast (arr : FVec Ideal SBCN .f32) (idx : IVec SN 32) : FVec Ideal SBCN .f32 :=
  select (broadcastInDim SBCN ![2] bc_SN_SBCN (ok idx)) (Host.gather lastDims arr (col idx))
    (broadcastInDim SBCN ![] bc_S0_SBCN (constant S0 .f32 0x7FC00000#32))

/-! ## The mix of the four neighbours -/

/-- The literal one. -/
def one : Ideal .f32 := Ideal.ofBits .f32 0x3F800000#32

/-- The bilinear mix of four values at fractional offsets `(u, v)`, summed in this order. -/
def mix (a b c d u v : Ideal .f32) : Ideal .f32 :=
  ((a * ((one - u) * (one - v)) + b * (u * (one - v))) + c * ((one - u) * v)) + d * (u * v)

/-! ## The channels-minor arrangement -/

/-- The image as a table of pixel rows: `tbl[y · 1024 + x, b · 16 + c] = x[b, c, y, x]`. -/
def table (x : FVec Ideal SX .f32) : FVec Ideal SNK .f32 := shapeCast SNK (transpose ST [2, 3, 0, 1] x tr_SX_ST) cast_ST_SNK

def g00 (x : FVec Ideal SX .f32) (sm : FVec Ideal SM .f32) : FVec Ideal SNK .f32 := takeRows (table x) (idx00 sm)
def g10 (x : FVec Ideal SX .f32) (sm : FVec Ideal SM .f32) : FVec Ideal SNK .f32 := takeRows (table x) (idx10 sm)
def g01 (x : FVec Ideal SX .f32) (sm : FVec Ideal SM .f32) : FVec Ideal SNK .f32 := takeRows (table x) (idx01 sm)
def g11 (x : FVec Ideal SX .f32) (sm : FVec Ideal SM .f32) : FVec Ideal SNK .f32 := takeRows (table x) (idx11 sm)
/-- The fractional offsets as columns `[524288, 1]`. -/
def dxCol (sm : FVec Ideal SM .f32) : FVec Ideal SN1 .f32 := shapeCast SN1 (dx sm) cast_SP_SN1
def dyCol (sm : FVec Ideal SM .f32) : FVec Ideal SN1 .f32 := shapeCast SN1 (dy sm) cast_SP_SN1

/-- The mixed rows: entry `(n, k)` mixes the four gathered rows' entries `(n, k)` at pixel `n`'s offsets. -/
def mixedRows (x : FVec Ideal SX .f32) (sm : FVec Ideal SM .f32) : FVec Ideal SNK .f32 := fun j =>
  mix (g00 x sm j) (g10 x sm j) (g01 x sm j) (g11 x sm j)
    (dxCol sm (fun a => match a with | ⟨0, _⟩ => j 0 | ⟨1, _⟩ => (0 : Fin 1)))
    (dyCol sm (fun a => match a with | ⟨0, _⟩ => j 0 | ⟨1, _⟩ => (0 : Fin 1)))

/-- The rows re-laid as `[4, 16, 512, 1024]`. -/
def relaid (rows : FVec Ideal SNK .f32) : FVec Ideal SX .f32 := transpose SX [2, 3, 0, 1] (shapeCast ST rows cast_SNK_ST) tr_ST_SX

def minorOut (x : FVec Ideal SX .f32) (sm : FVec Ideal SM .f32) : FVec Ideal SX .f32 := relaid (mixedRows x sm)

/-! ## The channels-major arrangement -/

/-- The literal one on the pixel grid. -/
def ones : FVec Ideal SP .f32 := broadcastInDim SP ![] bc_S0_SP (constant S0 .f32 0x3F800000#32)

def w00 (sm : FVec Ideal SM .f32) : FVec Ideal SN .f32 := shapeCast SN (mulf (subf ones (dx sm)) (subf ones (dy sm))) cast_SP_SN
def w10 (sm : FVec Ideal SM .f32) : FVec Ideal SN .f32 := shapeCast SN (mulf (dx sm) (subf ones (dy sm))) cast_SP_SN
def w01 (sm : FVec Ideal SM .f32) : FVec Ideal SN .f32 := shapeCast SN (mulf (subf ones (dx sm)) (dy sm)) cast_SP_SN
def w11 (sm : FVec Ideal SM .f32) : FVec Ideal SN .f32 := shapeCast SN (mulf (dx sm) (dy sm)) cast_SP_SN

/-- A weight per output pixel, broadcast over the two leading axes. -/
def spread (w : FVec Ideal SN .f32) : FVec Ideal SBCN .f32 :=
  broadcastInDim SBCN ![0, 1, 2] bc_S11N_SBCN (broadcastInDim S11N ![2] bc_SN_S11N w)

/-- The image with its two pixel axes merged. -/
def merged (x : FVec Ideal SX .f32) : FVec Ideal SBCN .f32 := shapeCast SBCN x cast_SX_SBCN

def majorOut (x : FVec Ideal SX .f32) (sm : FVec Ideal SM .f32) : FVec Ideal SX .f32 :=
  shapeCast SX
    (addf (addf (addf (mulf (takeLast (merged x) (idx00 sm)) (spread (w00 sm)))
                      (mulf (takeLast (merged x) (idx10 sm)) (spread (w10 sm))))
                (mulf (takeLast (merged x) (idx01 sm)) (spread (w01 sm))))
          (mulf (takeLast (merged x) (idx11 sm)) (spread (w11 sm))))
    cast_SBCN_SX

end Cert.Resample

end
-- ==== Proof.Layout.lean ====
/-
  Layout operations read at an index, at the literal shapes of one program: a gather of rows of a channels-minor
  table [524288, 64], a gather along the last axis of [4, 16, 524288], and the transposes, reshapes and broadcasts
  that carry x : [4, 16, 512, 1024] to either operand. Every index is written by its coordinates.
-/
import Idealize.ShloMosaic.PureOps
import Idealize.ShloMosaic.Lib.ValueIdx
import Idealize.ShloMosaic.Lib.Pipeline.Value
import Idealize.ShloMosaic.Lib.ValueLayout

noncomputable section

namespace Cert.Layout

open Idealize.ShloMosaic Idealize.ShloMosaic.ValueIdx

variable {α : Type}

/-! ## The shapes -/

/-- The array x : [4, 16, 512, 1024] (batch, channel, height, width). -/
abbrev SX : Shape := ⟨4, ![4, 16, 512, 1024]⟩
/-- x with the spatial axes first: [512, 1024, 4, 16]. -/
abbrev ST : Shape := ⟨4, ![512, 1024, 4, 16]⟩
/-- The channels-minor table: one row per pixel, one column per (batch, channel) pair. -/
abbrev SNK : Shape := ⟨2, ![524288, 64]⟩
/-- x with the spatial axes flattened: [4, 16, 524288]. -/
abbrev SBCN : Shape := ⟨3, ![4, 16, 524288]⟩
/-- One entry per pixel. -/
abbrev SN : Shape := ⟨1, ![524288]⟩
/-- One entry per pixel, as a column. -/
abbrev SN1 : Shape := ⟨2, ![524288, 1]⟩
/-- The pixel grid. -/
abbrev SP : Shape := ⟨2, ![512, 1024]⟩
/-- One entry per pixel behind two unit axes. -/
abbrev S11N : Shape := ⟨3, ![1, 1, 524288]⟩
/-- The scalar shape. -/
abbrev S0 : Shape := ⟨0, ![]⟩

/-! ## Gathers -/

/-- The dimension numbers of a gather of whole rows of the table: start index r names a row, the row's 64 entries are
    the slice. -/
abbrev rowsDims (wf : GatherDims.WF SNK SN1 SNK [1] [0] [] [0] [] 1 ![1, 64]) : GatherDims SNK SN1 SNK where
  offsetDims := [1]
  collapsedSliceDims := [0]
  operandBatchingDims := []
  startIndicesBatchingDims := []
  startIndexMap := [0]
  indexVectorDim := 1
  sliceSizes := ![1, 64]
  wf := wf

/-- The gather of rows read at (r, k): the table at row idx[r, 0], read signed and clamped into [0, 524287], column k. -/
theorem gather_rows_apply (wf : GatherDims.WF SNK SN1 SNK [1] [0] [] [0] [] 1 ![1, 64])
    (x : SNK.Idx → α) (idx : IVec SN1 32) (r : Fin 524288) (k : Fin 64) :
    Host.gather (rowsDims wf) x idx (ix2 r k)
      = x (ix2 ⟨min (idx (ix2 r 0)).toInt.toNat 524287, by omega⟩ k) := by
  unfold Host.gather
  congr 1
  funext a
  refine Fin.ext ?_
  match a with
  | ⟨0, _⟩ =>
    show (rowsDims wf).start (ix2 r k) idx 0 + (rowsDims wf).batchCoord (ix2 r k) 0
      + (rowsDims wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims wf).startIndexMap from List.mem_singleton.mpr rfl)]
    have hsi : (rowsDims wf).siIdx (ix2 r k) ⟨List.idxOf (0 : Fin 2) (rowsDims wf).startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  | ⟨1, _⟩ =>
    show (rowsDims wf).start (ix2 r k) idx 1 + (rowsDims wf).batchCoord (ix2 r k) 1
      + (rowsDims wf).offCoord (ix2 r k) 1 = k.val
    rw [GatherDims.batchCoord_eq_zero _ _ _ List.not_mem_nil]
    unfold GatherDims.start
    rw [dif_neg (show (1 : Fin 2) ∉ ([0] : List (Fin 2)) by decide)]
    simp only [Nat.add_zero, Nat.zero_add]
    rfl

/-- The dimension numbers of a gather along the last axis of [4, 16, 524288]: start index r names a pixel, the
    4 × 16 entries over it are the slice. -/
abbrev lastDims (wf : GatherDims.WF SBCN SN1 SBCN [0, 1] [2] [] [2] [] 1 ![4, 16, 1]) : GatherDims SBCN SN1 SBCN where
  offsetDims := [0, 1]
  collapsedSliceDims := [2]
  operandBatchingDims := []
  startIndicesBatchingDims := []
  startIndexMap := [2]
  indexVectorDim := 1
  sliceSizes := ![4, 16, 1]
  wf := wf

/-- The gather along the last axis read at (b, c, r): the array at (b, c) and pixel idx[r, 0], read signed and clamped
    into [0, 524287]. -/
theorem gather_last_apply (wf : GatherDims.WF SBCN SN1 SBCN [0, 1] [2] [] [2] [] 1 ![4, 16, 1])
    (x : SBCN.Idx → α) (idx : IVec SN1 32) (b : Fin 4) (c : Fin 16) (r : Fin 524288) :
    Host.gather (lastDims wf) x idx (ix3 b c r)
      = x (ix3 b c ⟨min (idx (ix2 r 0)).toInt.toNat 524287, by omega⟩) := by
  unfold Host.gather
  congr 1
  funext a
  refine Fin.ext ?_
  match a with
  | ⟨0, _⟩ =>
    show (lastDims wf).start (ix3 b c r) idx 0 + (lastDims wf).batchCoord (ix3 b c r) 0
      + (lastDims wf).offCoord (ix3 b c r) 0 = b.val
    rw [GatherDims.batchCoord_eq_zero _ _ _ List.not_mem_nil]
    unfold GatherDims.start
    rw [dif_neg (show (0 : Fin 3) ∉ ([2] : List (Fin 3)) by decide)]
    simp only [Nat.add_zero, Nat.zero_add]
    rfl
  | ⟨1, _⟩ =>
    show (lastDims wf).start (ix3 b c r) idx 1 + (lastDims wf).batchCoord (ix3 b c r) 1
      + (lastDims wf).offCoord (ix3 b c r) 1 = c.val
    rw [GatherDims.batchCoord_eq_zero _ _ _ List.not_mem_nil]
    unfold GatherDims.start
    rw [dif_neg (show (1 : Fin 3) ∉ ([2] : List (Fin 3)) by decide)]
    simp only [Nat.add_zero, Nat.zero_add]
    rfl
  | ⟨2, _⟩ =>
    show (lastDims wf).start (ix3 b c r) idx 2 + (lastDims wf).batchCoord (ix3 b c r) 2
      + (lastDims wf).offCoord (ix3 b c r) 2 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (lastDims wf).startIndexMap from List.mem_singleton.mpr rfl)]
    have hsi : (lastDims wf).siIdx (ix3 b c r) ⟨List.idxOf (2 : Fin 3) (lastDims wf).startIndexMap,
        List.idxOf_lt_length_iff.2 (List.mem_singleton.mpr rfl)⟩ = ix2 r 0 := by
      funext e; refine Fin.ext ?_
      match e with
      | ⟨0, _⟩ => rfl
      | ⟨1, _⟩ => rfl
    rw [hsi]
    rfl

/-! ## Reshapes

Each reshape keeps the row-major position; with 524288 = 512 · 1024 and 64 = 4 · 16 a pixel n is (n / 1024, n % 1024)
and a column k is (k / 16, k % 16). -/

/-- [512, 1024, 4, 16] → [524288, 64] at (n, k). -/
theorem shapeCast_ST_SNK_apply (y : ST.Idx → α) (h : ST.ShapeCasts SNK) (n : Fin 524288) (k : Fin 64) :
    shapeCast SNK y h (ix2 n k)
      = y (ix4 (⟨n.val / 1024, by omega⟩ : Fin 512) (⟨n.val % 1024, by omega⟩ : Fin 1024)
          (⟨k.val / 16, by omega⟩ : Fin 4) (⟨k.val % 16, by omega⟩ : Fin 16)) :=
  shapeCast_apply y h _ _ (by
    rw [Shape.rowMajor_val_four, Shape.rowMajor_val_two]
    show ((n.val / 1024 * 1024 + n.val % 1024) * 4 + k.val / 16) * 16 + k.val % 16 = n.val * 64 + k.val
    omega)

/-- [4, 16, 512, 1024] → [4, 16, 524288] at (b, c, n). -/
theorem shapeCast_SX_SBCN_apply (x : SX.Idx → α) (h : SX.ShapeCasts SBCN) (b : Fin 4) (c : Fin 16) (n : Fin 524288) :
    shapeCast SBCN x h (ix3 b c n)
      = x (ix4 b c (⟨n.val / 1024, by omega⟩ : Fin 512) (⟨n.val % 1024, by omega⟩ : Fin 1024)) :=
  shapeCast_apply x h _ _ (by
    rw [Shape.rowMajor_val_four, Shape.rowMajor_val_three]
    show ((b.val * 16 + c.val) * 512 + n.val / 1024) * 1024 + n.val % 1024 = (b.val * 16 + c.val) * 524288 + n.val
    omega)

/-- [4, 16, 524288] → [4, 16, 512, 1024] at (b, c, hh, w). -/
theorem shapeCast_SBCN_SX_apply (z : SBCN.Idx → α) (h : SBCN.ShapeCasts SX) (b : Fin 4) (c : Fin 16) (hh : Fin 512)
    (w : Fin 1024) :
    shapeCast SX z h (ix4 b c hh w) = z (ix3 b c (⟨hh.val * 1024 + w.val, by omega⟩ : Fin 524288)) :=
  shapeCast_apply z h _ _ (by
    rw [Shape.rowMajor_val_four, Shape.rowMajor_val_three]
    show (b.val * 16 + c.val) * 524288 + (hh.val * 1024 + w.val) = ((b.val * 16 + c.val) * 512 + hh.val) * 1024 + w.val
    omega)

/-- [524288, 64] → [512, 1024, 4, 16] at (hh, w, b, c). -/
theorem shapeCast_SNK_ST_apply (o : SNK.Idx → α) (h : SNK.ShapeCasts ST) (hh : Fin 512) (w : Fin 1024) (b : Fin 4)
    (c : Fin 16) :
    shapeCast ST o h (ix4 hh w b c)
      = o (ix2 (⟨hh.val * 1024 + w.val, by omega⟩ : Fin 524288) (⟨b.val * 16 + c.val, by omega⟩ : Fin 64)) :=
  shapeCast_apply o h _ _ (by
    rw [Shape.rowMajor_val_four, Shape.rowMajor_val_two]
    show (hh.val * 1024 + w.val) * 64 + (b.val * 16 + c.val) = ((hh.val * 1024 + w.val) * 4 + b.val) * 16 + c.val
    omega)

/-- [512, 1024] → [524288] at n. -/
theorem shapeCast_SP_SN_apply (v : SP.Idx → α) (h : SP.ShapeCasts SN) (n : Fin 524288) :
    shapeCast SN v h (ix1 n) = v (ix2 (⟨n.val / 1024, by omega⟩ : Fin 512) (⟨n.val % 1024, by omega⟩ : Fin 1024)) :=
  shapeCast_apply v h _ _ (by
    rw [Shape.rowMajor_val_two, Shape.rowMajor_val_one]
    show n.val / 1024 * 1024 + n.val % 1024 = n.val
    omega)

/-- [512, 1024] → [524288, 1] at (n, 0). -/
theorem shapeCast_SP_SN1_apply (v : SP.Idx → α) (h : SP.ShapeCasts SN1) (n : Fin 524288) :
    shapeCast SN1 v h (ix2 n (0 : Fin 1))
      = v (ix2 (⟨n.val / 1024, by omega⟩ : Fin 512) (⟨n.val % 1024, by omega⟩ : Fin 1024)) :=
  shapeCast_apply v h _ _ (by
    rw [Shape.rowMajor_val_two, Shape.rowMajor_val_two]
    show n.val / 1024 * 1024 + n.val % 1024 = n.val * 1 + 0
    omega)

/-! ## Transposes

Both are the permutation [2, 3, 0, 1]: result axis b reads source axis perm[b]. -/

/-- [4, 16, 512, 1024] → [512, 1024, 4, 16] at (hh, w, b, c). -/
theorem transpose_SX_ST_apply (x : SX.Idx → α) (h : SX.Transposes [2, 3, 0, 1] ST) (hh : Fin 512) (w : Fin 1024)
    (b : Fin 4) (c : Fin 16) : transpose ST [2, 3, 0, 1] x h (ix4 hh w b c) = x (ix4 b c hh w) :=
  transpose_apply _ x h _ _ fun e => match e with | ⟨0, _⟩ => rfl | ⟨1, _⟩ => rfl | ⟨2, _⟩ => rfl | ⟨3, _⟩ => rfl

/-- [512, 1024, 4, 16] → [4, 16, 512, 1024] at (b, c, hh, w). -/
theorem transpose_ST_SX_apply (y : ST.Idx → α) (h : ST.Transposes [2, 3, 0, 1] SX) (b : Fin 4) (c : Fin 16)
    (hh : Fin 512) (w : Fin 1024) : transpose SX [2, 3, 0, 1] y h (ix4 b c hh w) = y (ix4 hh w b c) :=
  transpose_apply _ y h _ _ fun e => match e with | ⟨0, _⟩ => rfl | ⟨1, _⟩ => rfl | ⟨2, _⟩ => rfl | ⟨3, _⟩ => rfl

/-! ## Broadcasts -/

/-- A per-pixel vector as a column: at (n, 0) it is the vector at n. -/
theorem broadcast_SN_SN1_apply (x : SN.Idx → α) (h : SN.BroadcastsInDim SN1 ![0]) (n : Fin 524288) :
    broadcastInDim SN1 ![0] h x (ix2 n (0 : Fin 1)) = x (ix1 n) :=
  broadcastInDim_apply _ h x _ _ fun a => match a with
    | ⟨0, _⟩ => by
      show n.val = if (524288 : Nat) = 1 then 0 else n.val
      rw [if_neg (by decide)]

/-- A per-pixel vector along the table's rows: at (n, k) it is the vector at n. -/
theorem broadcast_SN_SNK_apply (x : SN.Idx → α) (h : SN.BroadcastsInDim SNK ![0]) (n : Fin 524288) (k : Fin 64) :
    broadcastInDim SNK ![0] h x (ix2 n k) = x (ix1 n) :=
  broadcastInDim_apply _ h x _ _ fun a => match a with
    | ⟨0, _⟩ => by
      show n.val = if (524288 : Nat) = 1 then 0 else n.val
      rw [if_neg (by decide)]

/-- A per-pixel vector along the last axis of [4, 16, 524288]: at (b, c, n) it is the vector at n. -/
theorem broadcast_SN_SBCN_apply (x : SN.Idx → α) (h : SN.BroadcastsInDim SBCN ![2]) (b : Fin 4) (c : Fin 16)
    (n : Fin 524288) : broadcastInDim SBCN ![2] h x (ix3 b c n) = x (ix1 n) :=
  broadcastInDim_apply _ h x _ _ fun a => match a with
    | ⟨0, _⟩ => by
      show n.val = if (524288 : Nat) = 1 then 0 else n.val
      rw [if_neg (by decide)]

/-- A per-pixel vector put behind two unit axes: at (u, v, n) it is the vector at n. -/
theorem broadcast_SN_S11N_apply (x : SN.Idx → α) (h : SN.BroadcastsInDim S11N ![2]) (u v : Fin 1) (n : Fin 524288) :
    broadcastInDim S11N ![2] h x (ix3 u v n) = x (ix1 n) :=
  broadcastInDim_apply _ h x _ _ fun a => match a with
    | ⟨0, _⟩ => by
      show n.val = if (524288 : Nat) = 1 then 0 else n.val
      rw [if_neg (by decide)]

/-- [1, 1, 524288] stretched over (batch, channel): at (b, c, n) it is the operand at (0, 0, n). -/
theorem broadcast_S11N_SBCN_apply (y : S11N.Idx → α) (h : S11N.BroadcastsInDim SBCN ![0, 1, 2]) (b : Fin 4) (c : Fin 16)
    (n : Fin 524288) : broadcastInDim SBCN ![0, 1, 2] h y (ix3 b c n) = y (ix3 (0 : Fin 1) (0 : Fin 1) n) :=
  broadcastInDim_apply _ h y _ _ fun a => match a with
    | ⟨0, _⟩ => rfl
    | ⟨1, _⟩ => rfl
    | ⟨2, _⟩ => by
      show n.val = if (524288 : Nat) = 1 then 0 else n.val
      rw [if_neg (by decide)]

/-- The two in sequence: a per-pixel vector stretched over (batch, channel) reads, at (b, c, n), the vector at n. -/
theorem broadcast_SN_S11N_SBCN_apply (x : SN.Idx → α) (h1 : SN.BroadcastsInDim S11N ![2])
    (h2 : S11N.BroadcastsInDim SBCN ![0, 1, 2]) (b : Fin 4) (c : Fin 16) (n : Fin 524288) :
    broadcastInDim SBCN ![0, 1, 2] h2 (broadcastInDim S11N ![2] h1 x) (ix3 b c n) = x (ix1 n) :=
  (broadcast_S11N_SBCN_apply _ h2 b c n).trans (broadcast_SN_S11N_apply x h1 0 0 n)

/-- A scalar broadcast to any shape reads the scalar everywhere. -/
theorem broadcast_S0_apply {t : Shape} (dims : Fin S0.rank → Fin t.rank) (h : S0.BroadcastsInDim t dims)
    (x : S0.Idx → α) (i : t.Idx) : broadcastInDim t dims h x i = x ix0 :=
  congrArg x (funext fun a => a.elim0)

/-- … to the pixel grid, -/
theorem broadcast_S0_SP_apply (h : S0.BroadcastsInDim SP ![]) (x : S0.Idx → α) (i : SP.Idx) :
    broadcastInDim SP ![] h x i = x ix0 := broadcast_S0_apply _ h x i
/-- … to a per-pixel vector, -/
theorem broadcast_S0_SN_apply (h : S0.BroadcastsInDim SN ![]) (x : S0.Idx → α) (i : SN.Idx) :
    broadcastInDim SN ![] h x i = x ix0 := broadcast_S0_apply _ h x i
/-- … to a per-pixel column, -/
theorem broadcast_S0_SN1_apply (h : S0.BroadcastsInDim SN1 ![]) (x : S0.Idx → α) (i : SN1.Idx) :
    broadcastInDim SN1 ![] h x i = x ix0 := broadcast_S0_apply _ h x i
/-- … to the table, -/
theorem broadcast_S0_SNK_apply (h : S0.BroadcastsInDim SNK ![]) (x : S0.Idx → α) (i : SNK.Idx) :
    broadcastInDim SNK ![] h x i = x ix0 := broadcast_S0_apply _ h x i
/-- … and to [4, 16, 524288]. -/
theorem broadcast_S0_SBCN_apply (h : S0.BroadcastsInDim SBCN ![]) (x : S0.Idx → α) (i : SBCN.Idx) :
    broadcastInDim SBCN ![] h x i = x ix0 := broadcast_S0_apply _ h x i

end Cert.Layout

end
-- ==== Proof.Bridge.lean ====
/-
  The two arrangements of the bilinear resampling are the same array. At output index (b, c, h, w), with pixel
  n = h · 1024 + w and column k = b · 16 + c, the channels-minor arrangement reads the mixed rows at (n, k) and the
  channels-major one the weighted sum at (b, c, n); a row of the table taken at (n, k) and an entry taken along the last
  axis at (b, c, n) are the same entry of x, and the weights are the same products of the same fractional offsets.
-/
import proofs.«178297_j58463094833218_2_alg».proof.Proof.Spec
import proofs.«178297_j58463094833218_2_alg».proof.Proof.Layout

noncomputable section

namespace Cert.Resample

open Idealize.ShloMosaic Idealize.ShloMosaic.ValueIdx

/-! ## The image under either layout, read at an index -/

/-- The table at pixel n and column k is x at batch k / 16, channel k % 16, pixel (n / 1024, n % 1024). -/
theorem table_apply (x : FVec Ideal SX .f32) (n : Fin 524288) (k : Fin 64) :
    table x (ix2 n k)
      = x (ix4 (⟨k.val / 16, by omega⟩ : Fin 4) (⟨k.val % 16, by omega⟩ : Fin 16)
          (⟨n.val / 1024, by omega⟩ : Fin 512) (⟨n.val % 1024, by omega⟩ : Fin 1024)) := by
  unfold table
  rw [Layout.shapeCast_ST_SNK_apply, Layout.transpose_SX_ST_apply]

/-- The table at pixel n and column b · 16 + c is x at (b, c) and pixel (n / 1024, n % 1024). -/
theorem table_apply_pair (x : FVec Ideal SX .f32) (b : Fin 4) (c : Fin 16) (n : Fin 524288) :
    table x (ix2 n (⟨b.val * 16 + c.val, by omega⟩ : Fin 64))
      = x (ix4 b c (⟨n.val / 1024, by omega⟩ : Fin 512) (⟨n.val % 1024, by omega⟩ : Fin 1024)) := by
  rw [table_apply]
  have hb : (⟨(b.val * 16 + c.val) / 16, by omega⟩ : Fin 4) = b := Fin.ext (by show (b.val * 16 + c.val) / 16 = b.val; omega)
  have hc : (⟨(b.val * 16 + c.val) % 16, by omega⟩ : Fin 16) = c := Fin.ext (by show (b.val * 16 + c.val) % 16 = c.val; omega)
  rw [hb, hc]

/-- The merged image at (b, c, n) is x at (b, c) and pixel (n / 1024, n % 1024). -/
theorem merged_apply (x : FVec Ideal SX .f32) (b : Fin 4) (c : Fin 16) (n : Fin 524288) :
    merged x (ix3 b c n)
      = x (ix4 b c (⟨n.val / 1024, by omega⟩ : Fin 512) (⟨n.val % 1024, by omega⟩ : Fin 1024)) := by
  unfold merged
  rw [Layout.shapeCast_SX_SBCN_apply]

/-! ## Taking entries, read at an index -/

/-- The fill value. -/
def fill : Ideal .f32 := Ideal.ofBits .f32 0x7FC00000#32

/-- A taken row at (n, k): the table at the clamped start index of pixel n, column k, where the position is in range. -/
theorem takeRows_apply (tbl : FVec Ideal SNK .f32) (idx : IVec SN 32) (n : Fin 524288) (k : Fin 64) :
    takeRows tbl idx (ix2 n k)
      = Scalar.select (ok idx (ix1 n))
          (tbl (ix2 (⟨min (col idx (ix2 n 0)).toInt.toNat 524287, by omega⟩ : Fin 524288) k)) fill := by
  unfold takeRows rowsDims
  rw [select_apply, Layout.broadcast_SN_SNK_apply, Layout.broadcast_S0_apply, constant_apply, Layout.gather_rows_apply]
  rfl

/-- A taken entry at (b, c, n): the array at (b, c) and the clamped start index of pixel n, where the position is in
    range. -/
theorem takeLast_apply (arr : FVec Ideal SBCN .f32) (idx : IVec SN 32) (b : Fin 4) (c : Fin 16) (n : Fin 524288) :
    takeLast arr idx (ix3 b c n)
      = Scalar.select (ok idx (ix1 n))
          (arr (ix3 b c (⟨min (col idx (ix2 n 0)).toInt.toNat 524287, by omega⟩ : Fin 524288))) fill := by
  unfold takeLast lastDims
  rw [select_apply, Layout.broadcast_SN_SBCN_apply, Layout.broadcast_S0_apply, constant_apply, Layout.gather_last_apply]
  rfl

/-- THE KEY: a row of the table taken at pixel n, column b · 16 + c, is the entry of the merged image taken along the
    last axis at (b, c, n): the same mask, the same fill value, the same clamped start index j, and the table at
    (j, b · 16 + c) and the merged image at (b, c, j) are both x at (b, c, j / 1024, j % 1024). -/
theorem takeRows_eq_takeLast (x : FVec Ideal SX .f32) (idx : IVec SN 32) (b : Fin 4) (c : Fin 16) (n : Fin 524288) :
    takeRows (table x) idx (ix2 n (⟨b.val * 16 + c.val, by omega⟩ : Fin 64)) = takeLast (merged x) idx (ix3 b c n) := by
  rw [takeRows_apply, takeLast_apply, table_apply_pair, merged_apply]

/-! ## The channels-minor arrangement, read at an index -/

/-- The offsets' columns read the offsets at pixel (n / 1024, n % 1024). -/
theorem dxCol_apply (sm : FVec Ideal SM .f32) (n : Fin 524288) :
    dxCol sm (ix2 n (0 : Fin 1)) = dx sm (ix2 (⟨n.val / 1024, by omega⟩ : Fin 512) (⟨n.val % 1024, by omega⟩ : Fin 1024)) := by
  unfold dxCol
  rw [Layout.shapeCast_SP_SN1_apply]
theorem dyCol_apply (sm : FVec Ideal SM .f32) (n : Fin 524288) :
    dyCol sm (ix2 n (0 : Fin 1)) = dy sm (ix2 (⟨n.val / 1024, by omega⟩ : Fin 512) (⟨n.val % 1024, by omega⟩ : Fin 1024)) := by
  unfold dyCol
  rw [Layout.shapeCast_SP_SN1_apply]

/-- The mixed rows at (n, k): the mix of the four taken rows' entries at pixel n's offsets. -/
theorem mixedRows_apply (x : FVec Ideal SX .f32) (sm : FVec Ideal SM .f32) (n : Fin 524288) (k : Fin 64) :
    mixedRows x sm (ix2 n k)
      = mix (takeRows (table x) (idx00 sm) (ix2 n k)) (takeRows (table x) (idx10 sm) (ix2 n k))
          (takeRows (table x) (idx01 sm) (ix2 n k)) (takeRows (table x) (idx11 sm) (ix2 n k))
          (dx sm (ix2 (⟨n.val / 1024, by omega⟩ : Fin 512) (⟨n.val % 1024, by omega⟩ : Fin 1024)))
          (dy sm (ix2 (⟨n.val / 1024, by omega⟩ : Fin 512) (⟨n.val % 1024, by omega⟩ : Fin 1024))) := by
  have hj : (fun a : Fin 2 => match a with | ⟨0, _⟩ => (ix2 n k) 0 | ⟨1, _⟩ => (0 : Fin 1))
      = (ix2 n (0 : Fin 1) : SN1.Idx) := by
    funext a
    match a with
    | ⟨0, _⟩ => rfl
    | ⟨1, _⟩ => rfl
  rw [← dxCol_apply, ← dyCol_apply, ← hj]
  rfl

/-- The rows re-laid, at (b, c, h, w): the rows at pixel h · 1024 + w, column b · 16 + c. -/
theorem relaid_apply (rows : FVec Ideal SNK .f32) (b : Fin 4) (c : Fin 16) (hh : Fin 512) (w : Fin 1024) :
    relaid rows (ix4 b c hh w)
      = rows (ix2 (⟨hh.val * 1024 + w.val, by omega⟩ : Fin 524288) (⟨b.val * 16 + c.val, by omega⟩ : Fin 64)) := by
  unfold relaid
  rw [Layout.transpose_ST_SX_apply, Layout.shapeCast_SNK_ST_apply]

/-! ## The channels-major arrangement, read at an index -/

/-- The literal one everywhere on the pixel grid. -/
theorem ones_apply (i : SP.Idx) : ones i = one := by
  unfold ones
  rw [Layout.broadcast_S0_apply, constant_apply]
  rfl

/-- The four weights at pixel n are the products of the offsets at (n / 1024, n % 1024) and their complements. -/
theorem w00_apply (sm : FVec Ideal SM .f32) (n : Fin 524288) :
    w00 sm (ix1 n)
      = (one - dx sm (ix2 (⟨n.val / 1024, by omega⟩ : Fin 512) (⟨n.val % 1024, by omega⟩ : Fin 1024)))
        * (one - dy sm (ix2 (⟨n.val / 1024, by omega⟩ : Fin 512) (⟨n.val % 1024, by omega⟩ : Fin 1024))) := by
  unfold w00
  rw [Layout.shapeCast_SP_SN_apply, mulf_apply, subf_apply, subf_apply, ones_apply]
theorem w10_apply (sm : FVec Ideal SM .f32) (n : Fin 524288) :
    w10 sm (ix1 n)
      = dx sm (ix2 (⟨n.val / 1024, by omega⟩ : Fin 512) (⟨n.val % 1024, by omega⟩ : Fin 1024))
        * (one - dy sm (ix2 (⟨n.val / 1024, by omega⟩ : Fin 512) (⟨n.val % 1024, by omega⟩ : Fin 1024))) := by
  unfold w10
  rw [Layout.shapeCast_SP_SN_apply, mulf_apply, subf_apply, ones_apply]
theorem w01_apply (sm : FVec Ideal SM .f32) (n : Fin 524288) :
    w01 sm (ix1 n)
      = (one - dx sm (ix2 (⟨n.val / 1024, by omega⟩ : Fin 512) (⟨n.val % 1024, by omega⟩ : Fin 1024)))
        * dy sm (ix2 (⟨n.val / 1024, by omega⟩ : Fin 512) (⟨n.val % 1024, by omega⟩ : Fin 1024)) := by
  unfold w01
  rw [Layout.shapeCast_SP_SN_apply, mulf_apply, subf_apply, ones_apply]
theorem w11_apply (sm : FVec Ideal SM .f32) (n : Fin 524288) :
    w11 sm (ix1 n)
      = dx sm (ix2 (⟨n.val / 1024, by omega⟩ : Fin 512) (⟨n.val % 1024, by omega⟩ : Fin 1024))
        * dy sm (ix2 (⟨n.val / 1024, by omega⟩ : Fin 512) (⟨n.val % 1024, by omega⟩ : Fin 1024)) := by
  unfold w11
  rw [Layout.shapeCast_SP_SN_apply, mulf_apply]

/-- A weight spread over the two leading axes reads, at (b, c, n), the weight of pixel n. -/
theorem spread_apply (w : FVec Ideal SN .f32) (b : Fin 4) (c : Fin 16) (n : Fin 524288) :
    spread w (ix3 b c n) = w (ix1 n) := by
  unfold spread
  rw [Layout.broadcast_SN_S11N_SBCN_apply]

/-- The channels-major result at (b, c, h, w): the weighted sum at (b, c) and pixel h · 1024 + w. -/
theorem majorOut_apply (x : FVec Ideal SX .f32) (sm : FVec Ideal SM .f32) (b : Fin 4) (c : Fin 16) (hh : Fin 512)
    (w : Fin 1024) :
    majorOut x sm (ix4 b c hh w)
      = ((takeLast (merged x) (idx00 sm) (ix3 b c (⟨hh.val * 1024 + w.val, by omega⟩ : Fin 524288))
            * spread (w00 sm) (ix3 b c (⟨hh.val * 1024 + w.val, by omega⟩ : Fin 524288))
          + takeLast (merged x) (idx10 sm) (ix3 b c (⟨hh.val * 1024 + w.val, by omega⟩ : Fin 524288))
            * spread (w10 sm) (ix3 b c (⟨hh.val * 1024 + w.val, by omega⟩ : Fin 524288)))
          + takeLast (merged x) (idx01 sm) (ix3 b c (⟨hh.val * 1024 + w.val, by omega⟩ : Fin 524288))
            * spread (w01 sm) (ix3 b c (⟨hh.val * 1024 + w.val, by omega⟩ : Fin 524288)))
        + takeLast (merged x) (idx11 sm) (ix3 b c (⟨hh.val * 1024 + w.val, by omega⟩ : Fin 524288))
          * spread (w11 sm) (ix3 b c (⟨hh.val * 1024 + w.val, by omega⟩ : Fin 524288)) := by
  unfold majorOut
  rw [Layout.shapeCast_SBCN_SX_apply, addf_apply, addf_apply, addf_apply, mulf_apply, mulf_apply, mulf_apply, mulf_apply]

/-! ## The two arrangements agree -/

/-- The channels-minor and the channels-major arrangement are the same array. -/
theorem minor_eq_major (x : FVec Ideal SX .f32) (sm : FVec Ideal SM .f32) : minorOut x sm = majorOut x sm := by
  funext j
  obtain ⟨b, c, hh, w, rfl⟩ : ∃ (b : Fin 4) (c : Fin 16) (hh : Fin 512) (w : Fin 1024), j = ix4 b c hh w :=
    ⟨j 0, j 1, j 2, j 3, eq_ix4 j⟩
  rw [majorOut_apply, spread_apply, spread_apply, spread_apply, spread_apply, w00_apply, w10_apply, w01_apply, w11_apply]
  unfold minorOut
  rw [relaid_apply, mixedRows_apply, takeRows_eq_takeLast, takeRows_eq_takeLast, takeRows_eq_takeLast,
    takeRows_eq_takeLast]
  rfl

end Cert.Resample

end
-- ==== Proof.KerHost.lean ====
/-
  What the host operations before the region leave in the arrays the region stages, at the ideal instance: the
  four tables of gathered pixel rows (one per neighbour) and the two columns of fractional offsets, each the named
  stage of the channels-minor arrangement applied to the two arguments as launched.
-/
import proofs.«178297_j58463094833218_2_alg».proof.Proof.Gen.KernelIdeal.Frame
import proofs.«178297_j58463094833218_2_alg».proof.Proof.Spec
import Idealize.ShloMosaic.Lib.StableHlo.Run

noncomputable section

namespace Cert.KernelIdeal.HostValue

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

attribute [local irreducible] Host.reduce Host.gather

set_option maxRecDepth 16384 in
set_option maxHeartbeats 2000000 in
/-- Window 0's array: the rows gathered at the neighbour `(y0, x0)`. -/
theorem V_g00 (c : Dev nD) :
    V m c main_call0_v26 = Cert.Resample.g00 (m ((c : Thread nD τ).loc main_arg0)) (m ((c : Thread nD τ).loc main_arg1)) := by
  show StableHlo.after hostOps0 (fun b => m (c, b)) (Proc.devRef .tc main_call0_v26) = _
  after_results_simp
  simp only [cast_eq]
  rfl

set_option maxRecDepth 16384 in
set_option maxHeartbeats 2000000 in
/-- Window 1's array: the rows gathered at the neighbour `(y0, x1)`. -/
theorem V_g10 (c : Dev nD) :
    V m c main_call0_v31 = Cert.Resample.g10 (m ((c : Thread nD τ).loc main_arg0)) (m ((c : Thread nD τ).loc main_arg1)) := by
  show StableHlo.after hostOps0 (fun b => m (c, b)) (Proc.devRef .tc main_call0_v31) = _
  after_results_simp
  simp only [cast_eq]
  rfl

set_option maxRecDepth 16384 in
set_option maxHeartbeats 2000000 in
/-- Window 2's array: the rows gathered at the neighbour `(y1, x0)`. -/
theorem V_g01 (c : Dev nD) :
    V m c main_call0_v36 = Cert.Resample.g01 (m ((c : Thread nD τ).loc main_arg0)) (m ((c : Thread nD τ).loc main_arg1)) := by
  show StableHlo.after hostOps0 (fun b => m (c, b)) (Proc.devRef .tc main_call0_v36) = _
  after_results_simp
  simp only [cast_eq]
  rfl

set_option maxRecDepth 16384 in
set_option maxHeartbeats 2000000 in
/-- Window 3's array: the rows gathered at the neighbour `(y1, x1)`. -/
theorem V_g11 (c : Dev nD) :
    V m c main_call0_v41 = Cert.Resample.g11 (m ((c : Thread nD τ).loc main_arg0)) (m ((c : Thread nD τ).loc main_arg1)) := by
  show StableHlo.after hostOps0 (fun b => m (c, b)) (Proc.devRef .tc main_call0_v41) = _
  after_results_simp
  simp only [cast_eq]
  rfl

set_option maxRecDepth 16384 in
set_option maxHeartbeats 2000000 in
/-- Window 4's array: the fractional `x` offsets as a column. -/
theorem V_dx (c : Dev nD) :
    V m c main_call0_v42 = Cert.Resample.dxCol (m ((c : Thread nD τ).loc main_arg1)) := by
  show StableHlo.after hostOps0 (fun b => m (c, b)) (Proc.devRef .tc main_call0_v42) = _
  after_results_simp
  simp only [cast_eq]
  rfl

set_option maxRecDepth 16384 in
set_option maxHeartbeats 2000000 in
/-- Window 5's array: the fractional `y` offsets as a column. -/
theorem V_dy (c : Dev nD) :
    V m c main_call0_v43 = Cert.Resample.dyCol (m ((c : Thread nD τ).loc main_arg1)) := by
  show StableHlo.after hostOps0 (fun b => m (c, b)) (Proc.devRef .tc main_call0_v43) = _
  after_results_simp
  simp only [cast_eq]
  rfl

end Cert.KernelIdeal.HostValue

end
-- ==== Proof.KerBody.lean ====
/-
  The body's arithmetic at one entry, at the ideal instance: entry `(r, k)` of the block the body stores is the
  bilinear mix of the four gathered rows' entries `(r, k)` at the offsets `(dx, dy)` of row `r` — the offset columns
  `[4096, 1]` are broadcast along the lanes, so column `k` reads their entry `(r, 0)`.
-/
import proofs.«178297_j58463094833218_2_alg».proof.Proof.Gen.KernelIdeal.Skeleton
import proofs.«178297_j58463094833218_2_alg».proof.Proof.Spec
import Idealize.ShloMosaic.Lib.ValueIdx
import Idealize.ShloMosaic.Lib.Pipeline.Value

noncomputable section

namespace Cert.KernelIdeal.Body

open Cert.KernelIdeal Cert.KernelIdeal.Gen Idealize.ShloMosaic Idealize.ShloMosaic.ValueIdx

/-- A column `[4096, 1]` broadcast to `[4096, 64]` reads its entry `(r, 0)` at `(r, k)`. -/
theorem bcol_apply (v : FVec Ideal S4096x1 .f32) (h : S4096x1.Broadcasts S4096x64) (r : Fin 4096) (k : Fin 64) :
    broadcastTo S4096x64 v h (ix2 r k) = v (ix2 r (0 : Fin 1)) :=
  broadcastTo_apply v h (ix2 r k) (ix2 r (0 : Fin 1)) fun a => by
    match a with
    | ⟨0, _⟩ => rfl
    | ⟨1, _⟩ => rfl

/-- The stored block at `(r, k)`: the mix of the four row blocks' entries at the row's two offsets. -/
theorem pay_apply (u v : Vec Ideal S4096x1 .f32) (a b c d : Vec Ideal S4096x64 .f32) (r : Fin 4096) (k : Fin 64) :
    k0_pay1 (F := Ideal) u v a b c d (ix2 r k)
      = Cert.Resample.mix (a (ix2 r k)) (b (ix2 r k)) (c (ix2 r k)) (d (ix2 r k)) (u (ix2 r (0 : Fin 1))) (v (ix2 r (0 : Fin 1))) := by
  unfold k0_pay1 Cert.Resample.mix Cert.Resample.one
  simp only [addf_apply, mulf_apply, subf_apply, bcol_apply, shapeCast_self, broadcast_apply]
  rfl

end Cert.KernelIdeal.Body

end
-- ==== Proof.KerBlocks.lean ====
/-
  From blocks to the array: at grid point `t` the region stages rows `4096 t … 4096 t + 4095` of each of the six
  input arrays and writes the same rows of the result back; the stored block is the mix of the staged blocks entry by
  entry, so every written block is a block of ONE function of the argument arrays — the mixed rows — and the 128
  blocks tile the result. Then the two host operations after the region re-lay that array as `[4, 16, 512, 1024]`.
-/
import proofs.«178297_j58463094833218_2_alg».proof.Proof.Gen.KernelIdeal.Frame
import proofs.«178297_j58463094833218_2_alg».proof.Proof.Spec
import proofs.«178297_j58463094833218_2_alg».proof.Proof.KerHost
import proofs.«178297_j58463094833218_2_alg».proof.Proof.KerBody
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- Every window's block index at point `t` is `(t, 0)`: decided over the 128 points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem point_lt (t : Fin cfg0.N) : t.val < 128 := by
  have h := t.isLt
  have hN : cfg0.N = 128 := N_0
  omega

/-- Row `r` of point `t`'s block is row `4096 t + r` of the array. -/
def row (t : Fin cfg0.N) (r : Fin 4096) : Fin 524288 := ⟨t.val * 4096 + r.val, by have := point_lt t; omega⟩

/-- Window 0's block at point `t` is rows `4096 t … 4096 t + 4095` of its array. -/
theorem emb0 (t : Fin cfg0.N) (r : Fin 4096) (k : Fin 64) :
    ((cfg0.win 0).blk t).view.emb (ix2 r k) = (ix2 (row t r) k : S524288x64.Idx) := by
  have e := idx_facts t
  refine funext fun a => Fin.ext ?_
  match a with
  | ⟨0, _⟩ => show win0_0.index t (0 : Fin 2) * 4096 + 1 * r.val = t.val * 4096 + r.val; omega
  | ⟨1, _⟩ => show win0_0.index t (1 : Fin 2) * 64 + 1 * k.val = k.val; omega

theorem iblk0_apply (c : Dev nD) (t : Fin cfg0.N) (r : Fin 4096) (k : Fin 64) :
    (iblk m c 0 t : Vec Ideal S4096x64 .f32) (ix2 r k) = (V m c main_call0_v26 : S524288x64.Idx → Ideal .f32) (ix2 (row t r) k) := by
  show (V m c main_call0_v26 : S524288x64.Idx → Ideal .f32) (((cfg0.win 0).blk t).view.emb (ix2 r k)) = _
  rw [emb0 t r k]

/-- Window 1's block at point `t` is rows `4096 t … 4096 t + 4095` of its array. -/
theorem emb1 (t : Fin cfg0.N) (r : Fin 4096) (k : Fin 64) :
    ((cfg0.win 1).blk t).view.emb (ix2 r k) = (ix2 (row t r) k : S524288x64.Idx) := by
  have e := idx_facts t
  refine funext fun a => Fin.ext ?_
  match a with
  | ⟨0, _⟩ => show win0_1.index t (0 : Fin 2) * 4096 + 1 * r.val = t.val * 4096 + r.val; omega
  | ⟨1, _⟩ => show win0_1.index t (1 : Fin 2) * 64 + 1 * k.val = k.val; omega

theorem iblk1_apply (c : Dev nD) (t : Fin cfg0.N) (r : Fin 4096) (k : Fin 64) :
    (iblk m c 1 t : Vec Ideal S4096x64 .f32) (ix2 r k) = (V m c main_call0_v31 : S524288x64.Idx → Ideal .f32) (ix2 (row t r) k) := by
  show (V m c main_call0_v31 : S524288x64.Idx → Ideal .f32) (((cfg0.win 1).blk t).view.emb (ix2 r k)) = _
  rw [emb1 t r k]

/-- Window 2's block at point `t` is rows `4096 t … 4096 t + 4095` of its array. -/
theorem emb2 (t : Fin cfg0.N) (r : Fin 4096) (k : Fin 64) :
    ((cfg0.win 2).blk t).view.emb (ix2 r k) = (ix2 (row t r) k : S524288x64.Idx) := by
  have e := idx_facts t
  refine funext fun a => Fin.ext ?_
  match a with
  | ⟨0, _⟩ => show win0_2.index t (0 : Fin 2) * 4096 + 1 * r.val = t.val * 4096 + r.val; omega
  | ⟨1, _⟩ => show win0_2.index t (1 : Fin 2) * 64 + 1 * k.val = k.val; omega

theorem iblk2_apply (c : Dev nD) (t : Fin cfg0.N) (r : Fin 4096) (k : Fin 64) :
    (iblk m c 2 t : Vec Ideal S4096x64 .f32) (ix2 r k) = (V m c main_call0_v36 : S524288x64.Idx → Ideal .f32) (ix2 (row t r) k) := by
  show (V m c main_call0_v36 : S524288x64.Idx → Ideal .f32) (((cfg0.win 2).blk t).view.emb (ix2 r k)) = _
  rw [emb2 t r k]

/-- Window 3's block at point `t` is rows `4096 t … 4096 t + 4095` of its array. -/
theorem emb3 (t : Fin cfg0.N) (r : Fin 4096) (k : Fin 64) :
    ((cfg0.win 3).blk t).view.emb (ix2 r k) = (ix2 (row t r) k : S524288x64.Idx) := by
  have e := idx_facts t
  refine funext fun a => Fin.ext ?_
  match a with
  | ⟨0, _⟩ => show win0_3.index t (0 : Fin 2) * 4096 + 1 * r.val = t.val * 4096 + r.val; omega
  | ⟨1, _⟩ => show win0_3.index t (1 : Fin 2) * 64 + 1 * k.val = k.val; omega

theorem iblk3_apply (c : Dev nD) (t : Fin cfg0.N) (r : Fin 4096) (k : Fin 64) :
    (iblk m c 3 t : Vec Ideal S4096x64 .f32) (ix2 r k) = (V m c main_call0_v41 : S524288x64.Idx → Ideal .f32) (ix2 (row t r) k) := by
  show (V m c main_call0_v41 : S524288x64.Idx → Ideal .f32) (((cfg0.win 3).blk t).view.emb (ix2 r k)) = _
  rw [emb3 t r k]

/-- Window 4's block at point `t` is rows `4096 t … 4096 t + 4095` of its array. -/
theorem emb4 (t : Fin cfg0.N) (r : Fin 4096) (k : Fin 1) :
    ((cfg0.win 4).blk t).view.emb (ix2 r k) = (ix2 (row t r) k : S524288x1.Idx) := by
  have e := idx_facts t
  refine funext fun a => Fin.ext ?_
  match a with
  | ⟨0, _⟩ => show win0_4.index t (0 : Fin 2) * 4096 + 1 * r.val = t.val * 4096 + r.val; omega
  | ⟨1, _⟩ => show win0_4.index t (1 : Fin 2) * 1 + 1 * k.val = k.val; omega

theorem iblk4_apply (c : Dev nD) (t : Fin cfg0.N) (r : Fin 4096) (k : Fin 1) :
    (iblk m c 4 t : Vec Ideal S4096x1 .f32) (ix2 r k) = (V m c main_call0_v42 : S524288x1.Idx → Ideal .f32) (ix2 (row t r) k) := by
  show (V m c main_call0_v42 : S524288x1.Idx → Ideal .f32) (((cfg0.win 4).blk t).view.emb (ix2 r k)) = _
  rw [emb4 t r k]

/-- Window 5's block at point `t` is rows `4096 t … 4096 t + 4095` of its array. -/
theorem emb5 (t : Fin cfg0.N) (r : Fin 4096) (k : Fin 1) :
    ((cfg0.win 5).blk t).view.emb (ix2 r k) = (ix2 (row t r) k : S524288x1.Idx) := by
  have e := idx_facts t
  refine funext fun a => Fin.ext ?_
  match a with
  | ⟨0, _⟩ => show win0_5.index t (0 : Fin 2) * 4096 + 1 * r.val = t.val * 4096 + r.val; omega
  | ⟨1, _⟩ => show win0_5.index t (1 : Fin 2) * 1 + 1 * k.val = k.val; omega

theorem iblk5_apply (c : Dev nD) (t : Fin cfg0.N) (r : Fin 4096) (k : Fin 1) :
    (iblk m c 5 t : Vec Ideal S4096x1 .f32) (ix2 r k) = (V m c main_call0_v43 : S524288x1.Idx → Ideal .f32) (ix2 (row t r) k) := by
  show (V m c main_call0_v43 : S524288x1.Idx → Ideal .f32) (((cfg0.win 5).blk t).view.emb (ix2 r k)) = _
  rw [emb5 t r k]

/-- The result window's block at point `t` sits at rows `4096 t …` of the result. -/
theorem emb6 (t : Fin cfg0.N) (r : Fin 4096) (k : Fin 64) :
    ((cfg0.win 6).blk t).view.emb (ix2 r k) = (ix2 (row t r) k : S524288x64.Idx) := by
  have e := idx_facts t
  refine funext fun a => Fin.ext ?_
  match a with
  | ⟨0, _⟩ => show win0_6.index t (0 : Fin 2) * 4096 + 1 * r.val = t.val * 4096 + r.val; omega
  | ⟨1, _⟩ => show win0_6.index t (1 : Fin 2) * 64 + 1 * k.val = k.val; omega

/-- The mixed rows at `(n, k)`. -/
theorem mixedRows_at (x : FVec Ideal Cert.Resample.SX .f32) (sm : FVec Ideal Cert.Resample.SM .f32) (n : Fin 524288) (k : Fin 64) :
    Cert.Resample.mixedRows x sm (ix2 n k)
      = Cert.Resample.mix (Cert.Resample.g00 x sm (ix2 n k)) (Cert.Resample.g10 x sm (ix2 n k)) (Cert.Resample.g01 x sm (ix2 n k))
          (Cert.Resample.g11 x sm (ix2 n k)) (Cert.Resample.dxCol sm (ix2 n (0 : Fin 1))) (Cert.Resample.dyCol sm (ix2 n (0 : Fin 1))) := by
  have hc : (fun a : Fin 2 => match a with | ⟨0, _⟩ => (ix2 n k : Cert.Resample.SNK.Idx) 0 | ⟨1, _⟩ => (0 : Fin 1) : Cert.Resample.SN1.Idx) = ix2 n (0 : Fin 1) := by
    funext a
    match a with
    | ⟨0, _⟩ => rfl
    | ⟨1, _⟩ => rfl
  rw [← hc]
  rfl

/-- WHAT POINT `t` WRITES BACK is block `t` of the mixed rows of the two arguments. -/
theorem flushed_eq (c : Dev nD) (t : Fin cfg0.N) :
    (dats m 0 c).flushed 6 t = ((cfg0.win 6).blk t).view.read (Elt Ideal)
      (Cert.Resample.mixedRows (m ((c : Thread nD τ).loc main_arg0)) (m ((c : Thread nD τ).loc main_arg1))) := by
  show (cfg0.win 6).cut (grid0.coords t) ((dats m 0 c).after 6 t) = _
  rw [after0_6]
  unfold out0_6
  rw [View.canon_unit_zero hz]
  simp only [View.ld_unit_zero (S := S4096x1) hz, View.ld_unit_zero (S := S4096x64) hz]
  funext j
  obtain ⟨r, k, rfl⟩ : ∃ (r : Fin 4096) (k : Fin 64), j = ix2 r k := ⟨j 0, j 1, eq_ix2 j⟩
  show k0_pay1 (F := Ideal) (iblk m c 4 t) (iblk m c 5 t) (iblk m c 0 t) (iblk m c 1 t) (iblk m c 2 t) (iblk m c 3 t) (ix2 r k)
    = Cert.Resample.mixedRows _ _ (((cfg0.win 6).blk t).view.emb (ix2 r k))
  refine (Body.pay_apply (iblk m c 4 t) (iblk m c 5 t) (iblk m c 0 t) (iblk m c 1 t) (iblk m c 2 t) (iblk m c 3 t) r k).trans ?_
  rw [emb6 t r k, mixedRows_at, iblk0_apply m c t r k, iblk1_apply m c t r k, iblk2_apply m c t r k, iblk3_apply m c t r k,
    iblk4_apply m c t r 0, iblk5_apply m c t r 0,
    HostValue.V_g00 m c, HostValue.V_g10 m c, HostValue.V_g01 m c, HostValue.V_g11 m c, HostValue.V_dx m c, HostValue.V_dy m c]

/-- An index of the result is in point `t`'s block iff each coordinate is in the block's range on its axis. -/
theorem mem_blk (t : Fin cfg0.N) (i : S524288x64.Idx) :
    i ∈ ((cfg0.win 6).blk t).view.set ↔ ∀ a : Fin 2, win0_6.index t a * S4096x64.size a ≤ (i a).val ∧ (i a).val < win0_6.index t a * S4096x64.size a + S4096x64.size a := by
  show i ∈ ((View.whole main_call0_v44).slice (win0_6.rect t)).set ↔ _
  rw [View.set_slice_whole, Rect.mem_set_unit]
  exact Iff.rfl

/-- The 128 blocks tile the result: row `n` is in the block of point `n / 4096`. -/
theorem cover (i : S524288x64.Idx) : ∃ t : Fin cfg0.N, (cfg0.win 6).flush t = true ∧ i ∈ ((cfg0.win 6).blk t).view.set := by
  have hi0 : (i 0).val < 524288 := (i 0).isLt
  have hi1 : (i 1).val < 64 := (i 1).isLt
  have hN : cfg0.N = 128 := N_0
  let t : Fin cfg0.N := ⟨(i 0).val / 4096, by omega⟩
  have ht : t.val = (i 0).val / 4096 := rfl
  have e := idx_facts t
  refine ⟨t, flush0_6 t, ?_⟩
  rw [mem_blk]
  intro a
  match a with
  | ⟨0, _⟩ => show win0_6.index t (0 : Fin 2) * 4096 ≤ (i 0).val ∧ (i 0).val < win0_6.index t (0 : Fin 2) * 4096 + 4096; omega
  | ⟨1, _⟩ => show win0_6.index t (1 : Fin 2) * 64 ≤ (i 1).val ∧ (i 1).val < win0_6.index t (1 : Fin 2) * 64 + 64; omega

/-- THE RESULT ARRAY of the region: the mixed rows of the two arguments. -/
theorem final (c : Dev nD) : (dats m 0 c).arrAt 6 cfg0.N
    = Cert.Resample.mixedRows (m ((c : Thread nD τ).loc main_arg0)) (m ((c : Thread nD τ).loc main_arg1)) :=
  (dats m 0 c).arrAt_eq_of_cover 6 _ (fun t _ => flushed_eq m c t) cover

end Cert.KernelIdeal.Blocks

end
-- ==== Proof.KerRun.lean ====
/-
  The run of the channels-minor program, read: the host operations after the region re-lay the region's result —
  the mixed rows `[524288, 64]` — as `[4, 16, 512, 1024]`, so the program's result is the channels-minor arrangement
  of its two arguments, which end unchanged.
-/
import proofs.«178297_j58463094833218_2_alg».proof.Proof.Gen.KernelIdeal.Frame
import proofs.«178297_j58463094833218_2_alg».proof.Proof.Spec
import proofs.«178297_j58463094833218_2_alg».proof.Proof.KerBlocks
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The two host operations after the region: the result rows reshaped to `[512, 1024, 4, 16]` and transposed. -/
theorem tail_eq (c : Dev nD) :
    Pipeline.afterTail₀ cfgs (dats m) 0 (V0 m) [hostOps1] c main_v0
      = Cert.Resample.relaid ((dats m 0 c).arrAt 6 cfg0.N) := by
  unfold Pipeline.afterTail₀
  show StableHlo.after hostOps1 _ (Proc.devRef .tc main_v0) = _
  after_results
  rw [Pipeline.withArrays_arr spec0 launch0.win.arr_inj c _ _ 6]
  rfl

/-- THE RUN, read: every weakly fair execution ends with the result at the channels-minor arrangement of the two
    arguments — the region's mixed rows re-laid by the two host operations after it — and the arguments unchanged. -/
theorem run : θ_run (defs (F := Ideal)) (onTc (τ := τ) (main (F := Ideal))) ⟨m, fun _ => 0, ρ⟩ fun r => ∀ c : Dev nD,
      r.2.mem ((c.tc : Thread nD τ).loc main_v0)
        = Cert.Resample.minorOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨
      ((h c).2 main_v0 (Pipeline.mem_restRefs_of main_v0 (by decide) (by decide))).trans
        ((tail_eq m c).trans (congrArg Cert.Resample.relaid (final m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Blocks

end
-- ==== Proof.RefOps.lean ====
/-
  The reference program's @main as ONE list of its 199 host operations, and its run read back.

  The list below is a transcription of the printed program (proof/ReferenceIdeal.lean), made by the command of
  line 1: @main's statements in order, and at each call the callee's operations in its place, the callee's
  parameters replaced by the call's operands and its buffer record by the call's record — a call of @clip is six
  operations (the two bounds converted and broadcast, the maximum, the minimum), a call of @_take twenty-four
  (the wrap of negative positions, whose select is @_where's one operation, the range test and its reduction, the
  gather, the fill value and the final select). The tuple in ops_sub is the matching list of the builders' facts.
  The theorems are written by hand: @main is that straight line once the calls' definitions unfold and the
  sequencing is reassociated, so every weakly fair execution terminates with each buffer at the operations' fold
  over the launch contents.
-/
import proofs.«178297_j58463094833218_2_alg».proof.Proof.Gen.ReferenceIdeal
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- @main's 199 operations in order, the calls written out. -/
abbrev ops : List (HloOp τ sig (Elt F)) :=
  [ StableHlo.unary main_arg1 main_v0 ((extractStridedSlice S512x1024x1 ![0, 0, 0] · slices_S512x1024x2_S512x1024x1_0_0_0) : (⟨S512x1024x2, .f32⟩ : BufTy).Contents (Elt F) → (⟨S512x1024x1, .f32⟩ : BufTy).Contents (Elt F)),
    StableHlo.reshape main_v0 main_v1 rfl shapeCasts_S512x1024x1_S512x1024,
    StableHlo.unary main_arg1 main_v2 ((extractStridedSlice S512x1024x1 ![0, 0, 1] · slices_S512x1024x2_S512x1024x1_0_0_1) : (⟨S512x1024x2, .f32⟩ : BufTy).Contents (Elt F) → (⟨S512x1024x1, .f32⟩ : BufTy).Contents (Elt F)),
    StableHlo.reshape main_v2 main_v3 rfl shapeCasts_S512x1024x1_S512x1024,
    StableHlo.unary main_v1 main_v4 (Host.floor : (⟨S512x1024, .f32⟩ : BufTy).Contents (Elt F) → (⟨S512x1024, .f32⟩ : BufTy).Contents (Elt F)),
    StableHlo.unary main_v3 main_v5 (Host.floor : (⟨S512x1024, .f32⟩ : BufTy).Contents (Elt F) → (⟨S512x1024, .f32⟩ : BufTy).Contents (Elt F)),
    StableHlo.binary main_v1 main_v4 main_v6 (subf : (⟨S512x1024, .f32⟩ : BufTy).Contents (Elt F) → (⟨S512x1024, .f32⟩ : BufTy).Contents (Elt F) → (⟨S512x1024, .f32⟩ : BufTy).Contents (Elt F)),
    StableHlo.binary main_v3 main_v5 main_v7 (subf : (⟨S512x1024, .f32⟩ : BufTy).Contents (Elt F) → (⟨S512x1024, .f32⟩ : BufTy).Contents (Elt F) → (⟨S512x1024, .f32⟩ : BufTy).Contents (Elt F)),
    StableHlo.unary main_v4 main_v8 (fptosi 32 : (⟨S512x1024, .f32⟩ : BufTy).Contents (Elt F) → (⟨S512x1024, .i32⟩ : BufTy).Contents (Elt F)),
    StableHlo.nullary main_c (constantI S_ 32 0#32),
    StableHlo.nullary main_c_0 (constantI S_ 32 1023#32),
    StableHlo.TRef.unary (.of main_c) main_call0.v0 id,
    StableHlo.TRef.unary main_call0.v0 main_call0.v1 (broadcastInDim S512x1024 ![] bcast_S_S512x1024),
    StableHlo.TRef.binary main_call0.v1 (.of main_v8) main_call0.v2 maxsi,
    StableHlo.TRef.unary (.of main_c_0) main_call0.v3 id,
    StableHlo.TRef.unary main_call0.v3 main_call0.v4 (broadcastInDim S512x1024 ![] bcast_S_S512x1024),
    StableHlo.TRef.binary main_call0.v4 main_call0.v2 main_call0.v5 minsi,
    StableHlo.unary main_v5 main_v10 (fptosi 32 : (⟨S512x1024, .f32⟩ : BufTy).Contents (Elt F) → (⟨S512x1024, .i32⟩ : BufTy).Contents (Elt F)),
    StableHlo.nullary main_c_1 (constantI S_ 32 0#32),
    StableHlo.nullary main_c_2 (constantI S_ 32 511#32),
    StableHlo.TRef.unary (.of main_c_1) main_call1.v0 id,
    StableHlo.TRef.unary main_call1.v0 main_call1.v1 (broadcastInDim S512x1024 ![] bcast_S_S512x1024),
    StableHlo.TRef.binary main_call1.v1 (.of main_v10) main_call1.v2 maxsi,
    StableHlo.TRef.unary (.of main_c_2) main_call1.v3 id,
    StableHlo.TRef.unary main_call1.v3 main_call1.v4 (broadcastInDim S512x1024 ![] bcast_S_S512x1024),
    StableHlo.TRef.binary main_call1.v4 main_call1.v2 main_call1.v5 minsi,
    StableHlo.unary main_v4 main_v12 (fptosi 32 : (⟨S512x1024, .f32⟩ : BufTy).Contents (Elt F) → (⟨S512x1024, .i32⟩ : BufTy).Contents (Elt F)),
    StableHlo.nullary main_c_3 (constantI S_ 32 1#32),
    StableHlo.unary main_c_3 main_v13 (broadcastInDim S512x1024 ![] bcast_S_S512x1024 : (⟨S_, .i32⟩ : BufTy).Contents (Elt F) → (⟨S512x1024, .i32⟩ : BufTy).Contents (Elt F)),
    StableHlo.binary main_v12 main_v13 main_v14 (addi : (⟨S512x1024, .i32⟩ : BufTy).Contents (Elt F) → (⟨S512x1024, .i32⟩ : BufTy).Contents (Elt F) → (⟨S512x1024, .i32⟩ : BufTy).Contents (Elt F)),
    StableHlo.nullary main_c_4 (constantI S_ 32 0#32),
    StableHlo.nullary main_c_5 (constantI S_ 32 1023#32),
    StableHlo.TRef.unary (.of main_c_4) main_call2.v0 id,
    StableHlo.TRef.unary main_call2.v0 main_call2.v1 (broadcastInDim S512x1024 ![] bcast_S_S512x1024),
    StableHlo.TRef.binary main_call2.v1 (.of main_v14) main_call2.v2 maxsi,
    StableHlo.TRef.unary (.of main_c_5) main_call2.v3 id,
    StableHlo.TRef.unary main_call2.v3 main_call2.v4 (broadcastInDim S512x1024 ![] bcast_S_S512x1024),
    StableHlo.TRef.binary main_call2.v4 main_call2.v2 main_call2.v5 minsi,
    StableHlo.unary main_v5 main_v16 (fptosi 32 : (⟨S512x1024, .f32⟩ : BufTy).Contents (Elt F) → (⟨S512x1024, .i32⟩ : BufTy).Contents (Elt F)),
    StableHlo.nullary main_c_6 (constantI S_ 32 1#32),
    StableHlo.unary main_c_6 main_v17 (broadcastInDim S512x1024 ![] bcast_S_S512x1024 : (⟨S_, .i32⟩ : BufTy).Contents (Elt F) → (⟨S512x1024, .i32⟩ : BufTy).Contents (Elt F)),
    StableHlo.binary main_v16 main_v17 main_v18 (addi : (⟨S512x1024, .i32⟩ : BufTy).Contents (Elt F) → (⟨S512x1024, .i32⟩ : BufTy).Contents (Elt F) → (⟨S512x1024, .i32⟩ : BufTy).Contents (Elt F)),
    StableHlo.nullary main_c_7 (constantI S_ 32 0#32),
    StableHlo.nullary main_c_8 (constantI S_ 32 511#32),
    StableHlo.TRef.unary (.of main_c_7) main_call3.v0 id,
    StableHlo.TRef.unary main_call3.v0 main_call3.v1 (broadcastInDim S512x1024 ![] bcast_S_S512x1024),
    StableHlo.TRef.binary main_call3.v1 (.of main_v18) main_call3.v2 maxsi,
    StableHlo.TRef.unary (.of main_c_8) main_call3.v3 id,
    StableHlo.TRef.unary main_call3.v3 main_call3.v4 (broadcastInDim S512x1024 ![] bcast_S_S512x1024),
    StableHlo.TRef.binary main_call3.v4 main_call3.v2 main_call3.v5 minsi,
    StableHlo.reshape main_arg0 main_v20 rfl shapeCasts_S4x16x512x1024_S4x16x524288,
    StableHlo.nullary main_cst (constant S_ .f32 0x3F800000#32),
    StableHlo.unary main_cst main_v21 (broadcastInDim S512x1024 ![] bcast_S_S512x1024 : (⟨S_, .f32⟩ : BufTy).Contents (Elt F) → (⟨S512x1024, .f32⟩ : BufTy).Contents (Elt F)),
    StableHlo.binary main_v21 main_v6 main_v22 (subf : (⟨S512x1024, .f32⟩ : BufTy).Contents (Elt F) → (⟨S512x1024, .f32⟩ : BufTy).Contents (Elt F) → (⟨S512x1024, .f32⟩ : BufTy).Contents (Elt F)),
    StableHlo.nullary main_cst_9 (constant S_ .f32 0x3F800000#32),
    StableHlo.unary main_cst_9 main_v23 (broadcastInDim S512x1024 ![] bcast_S_S512x1024 : (⟨S_, .f32⟩ : BufTy).Contents (Elt F) → (⟨S512x1024, .f32⟩ : BufTy).Contents (Elt F)),
    StableHlo.binary main_v23 main_v7 main_v24 (subf : (⟨S512x1024, .f32⟩ : BufTy).Contents (Elt F) → (⟨S512x1024, .f32⟩ : BufTy).Contents (Elt F) → (⟨S512x1024, .f32⟩ : BufTy).Contents (Elt F)),
    StableHlo.binary main_v22 main_v24 main_v25 (mulf : (⟨S512x1024, .f32⟩ : BufTy).Contents (Elt F) → (⟨S512x1024, .f32⟩ : BufTy).Contents (Elt F) → (⟨S512x1024, .f32⟩ : BufTy).Contents (Elt F)),
    StableHlo.reshape main_v25 main_v26 rfl shapeCasts_S512x1024_S524288,
    StableHlo.nullary main_cst_10 (constant S_ .f32 0x3F800000#32),
    StableHlo.unary main_cst_10 main_v27 (broadcastInDim S512x1024 ![] bcast_S_S512x1024 : (⟨S_, .f32⟩ : BufTy).Contents (Elt F) → (⟨S512x1024, .f32⟩ : BufTy).Contents (Elt F)),
    StableHlo.binary main_v27 main_v7 main_v28 (subf : (⟨S512x1024, .f32⟩ : BufTy).Contents (Elt F) → (⟨S512x1024, .f32⟩ : BufTy).Contents (Elt F) → (⟨S512x1024, .f32⟩ : BufTy).Contents (Elt F)),
    StableHlo.binary main_v6 main_v28 main_v29 (mulf : (⟨S512x1024, .f32⟩ : BufTy).Contents (Elt F) → (⟨S512x1024, .f32⟩ : BufTy).Contents (Elt F) → (⟨S512x1024, .f32⟩ : BufTy).Contents (Elt F)),
    StableHlo.reshape main_v29 main_v30 rfl shapeCasts_S512x1024_S524288,
    StableHlo.nullary main_cst_11 (constant S_ .f32 0x3F800000#32),
    StableHlo.unary main_cst_11 main_v31 (broadcastInDim S512x1024 ![] bcast_S_S512x1024 : (⟨S_, .f32⟩ : BufTy).Contents (Elt F) → (⟨S512x1024, .f32⟩ : BufTy).Contents (Elt F)),
    StableHlo.binary main_v31 main_v6 main_v32 (subf : (⟨S512x1024, .f32⟩ : BufTy).Contents (Elt F) → (⟨S512x1024, .f32⟩ : BufTy).Contents (Elt F) → (⟨S512x1024, .f32⟩ : BufTy).Contents (Elt F)),
    StableHlo.binary main_v32 main_v7 main_v33 (mulf : (⟨S512x1024, .f32⟩ : BufTy).Contents (Elt F) → (⟨S512x1024, .f32⟩ : BufTy).Contents (Elt F) → (⟨S512x1024, .f32⟩ : BufTy).Contents (Elt F)),
    StableHlo.reshape main_v33 main_v34 rfl shapeCasts_S512x1024_S524288,
    StableHlo.binary main_v6 main_v7 main_v35 (mulf : (⟨S512x1024, .f32⟩ : BufTy).Contents (Elt F) → (⟨S512x1024, .f32⟩ : BufTy).Contents (Elt F) → (⟨S512x1024, .f32⟩ : BufTy).Contents (Elt F)),
    StableHlo.reshape main_v35 main_v36 rfl shapeCasts_S512x1024_S524288,
    StableHlo.nullary main_c_12 (constantI S_ 32 1024#32),
    StableHlo.unary main_c_12 main_v37 (broadcastInDim S512x1024 ![] bcast_S_S512x1024 : (⟨S_, .i32⟩ : BufTy).Contents (Elt F) → (⟨S512x1024, .i32⟩ : BufTy).Contents (Elt F)),
    StableHlo.binary main_v11 main_v37 main_v38 (muli : (⟨S512x1024, .i32⟩ : BufTy).Contents (Elt F) → (⟨S512x1024, .i32⟩ : BufTy).Contents (Elt F) → (⟨S512x1024, .i32⟩ : BufTy).Contents (Elt F)),
    StableHlo.binary main_v38 main_v9 main_v39 (addi : (⟨S512x1024, .i32⟩ : BufTy).Contents (Elt F) → (⟨S512x1024, .i32⟩ : BufTy).Contents (Elt F) → (⟨S512x1024, .i32⟩ : BufTy).Contents (Elt F)),
    StableHlo.reshape main_v39 main_v40 rfl shapeCasts_S512x1024_S524288,
    StableHlo.TRef.nullary main_call4.c (constantI S_ 32 0#32),
    StableHlo.TRef.unary main_call4.c main_call4.v0 (broadcastInDim S524288 ![] bcast_S_S524288),
    StableHlo.TRef.binary (.of main_v40) main_call4.v0 main_call4.v1 (cmpi .slt),
    StableHlo.TRef.nullary main_call4.c_0 (constantI S_ 32 524288#32),
    StableHlo.TRef.unary main_call4.c_0 main_call4.v2 (broadcastInDim S524288 ![] bcast_S_S524288),
    StableHlo.TRef.binary (.of main_v40) main_call4.v2 main_call4.v3 addi,
    StableHlo.TRef.ternary main_call4.v1 main_call4.v3 (.of main_v40) main_call4.call0.v0 select,
    StableHlo.TRef.unary main_call4.call0.v0 main_call4.v5 (broadcastInDim S524288x1 ![0] bcast_S524288_S524288x1_0),
    StableHlo.TRef.nullary main_call4.c_1 (constantI S1 32 524287#32),
    StableHlo.TRef.nullary main_call4.c_2 (constantI S_ 32 0#32),
    StableHlo.TRef.unary main_call4.c_2 main_call4.v6 (broadcastInDim S524288x1 ![] bcast_S_S524288x1),
    StableHlo.TRef.binary main_call4.v5 main_call4.v6 main_call4.v7 (cmpi .sge),
    StableHlo.TRef.unary main_call4.c_1 main_call4.v8 (broadcastInDim S1x1 ![1] bcast_S1_S1x1_1),
    StableHlo.TRef.unary main_call4.v8 main_call4.v9 (broadcastInDim S524288x1 ![0, 1] bcast_S1x1_S524288x1_0_1),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S524288x1_S524288_d1 h_S_),
    StableHlo.TRef.binary (.of main_v20) main_call4.v5 main_call4.v13 (fun x i => Host.gather gather_S4x16x524288_S524288x1_S4x16x524288_01_2_n_n_2_1_4161 x i),
    StableHlo.TRef.unary main_call4.v12 main_call4.v14 (broadcastInDim S4x16x524288 ![2] bcast_S524288_S4x16x524288_2),
    StableHlo.TRef.nullary main_call4.cst (constant S_ .f32 0x7FC00000#32),
    StableHlo.TRef.unary main_call4.cst main_call4.v15 (broadcastInDim S4x16x524288 ![] bcast_S_S4x16x524288),
    StableHlo.TRef.ternary main_call4.v14 main_call4.v13 main_call4.v15 main_call4.v16 select,
    StableHlo.unary main_v26 main_v42 (broadcastInDim S1x1x524288 ![2] bcast_S524288_S1x1x524288_2 : (⟨S524288, .f32⟩ : BufTy).Contents (Elt F) → (⟨S1x1x524288, .f32⟩ : BufTy).Contents (Elt F)),
    StableHlo.unary main_v42 main_v43 (broadcastInDim S4x16x524288 ![0, 1, 2] bcast_S1x1x524288_S4x16x524288_0_1_2 : (⟨S1x1x524288, .f32⟩ : BufTy).Contents (Elt F) → (⟨S4x16x524288, .f32⟩ : BufTy).Contents (Elt F)),
    StableHlo.binary main_v41 main_v43 main_v44 (mulf : (⟨S4x16x524288, .f32⟩ : BufTy).Contents (Elt F) → (⟨S4x16x524288, .f32⟩ : BufTy).Contents (Elt F) → (⟨S4x16x524288, .f32⟩ : BufTy).Contents (Elt F)),
    StableHlo.nullary main_c_13 (constantI S_ 32 1024#32),
    StableHlo.unary main_c_13 main_v45 (broadcastInDim S512x1024 ![] bcast_S_S512x1024 : (⟨S_, .i32⟩ : BufTy).Contents (Elt F) → (⟨S512x1024, .i32⟩ : BufTy).Contents (Elt F)),
    StableHlo.binary main_v11 main_v45 main_v46 (muli : (⟨S512x1024, .i32⟩ : BufTy).Contents (Elt F) → (⟨S512x1024, .i32⟩ : BufTy).Contents (Elt F) → (⟨S512x1024, .i32⟩ : BufTy).Contents (Elt F)),
    StableHlo.binary main_v46 main_v15 main_v47 (addi : (⟨S512x1024, .i32⟩ : BufTy).Contents (Elt F) → (⟨S512x1024, .i32⟩ : BufTy).Contents (Elt F) → (⟨S512x1024, .i32⟩ : BufTy).Contents (Elt F)),
    StableHlo.reshape main_v47 main_v48 rfl shapeCasts_S512x1024_S524288,
    StableHlo.TRef.nullary main_call5.c (constantI S_ 32 0#32),
    StableHlo.TRef.unary main_call5.c main_call5.v0 (broadcastInDim S524288 ![] bcast_S_S524288),
    StableHlo.TRef.binary (.of main_v48) main_call5.v0 main_call5.v1 (cmpi .slt),
    StableHlo.TRef.nullary main_call5.c_0 (constantI S_ 32 524288#32),
    StableHlo.TRef.unary main_call5.c_0 main_call5.v2 (broadcastInDim S524288 ![] bcast_S_S524288),
    StableHlo.TRef.binary (.of main_v48) main_call5.v2 main_call5.v3 addi,
    StableHlo.TRef.ternary main_call5.v1 main_call5.v3 (.of main_v48) main_call5.call0.v0 select,
    StableHlo.TRef.unary main_call5.call0.v0 main_call5.v5 (broadcastInDim S524288x1 ![0] bcast_S524288_S524288x1_0),
    StableHlo.TRef.nullary main_call5.c_1 (constantI S1 32 524287#32),
    StableHlo.TRef.nullary main_call5.c_2 (constantI S_ 32 0#32),
    StableHlo.TRef.unary main_call5.c_2 main_call5.v6 (broadcastInDim S524288x1 ![] bcast_S_S524288x1),
    StableHlo.TRef.binary main_call5.v5 main_call5.v6 main_call5.v7 (cmpi .sge),
    StableHlo.TRef.unary main_call5.c_1 main_call5.v8 (broadcastInDim S1x1 ![1] bcast_S1_S1x1_1),
    StableHlo.TRef.unary main_call5.v8 main_call5.v9 (broadcastInDim S524288x1 ![0, 1] bcast_S1x1_S524288x1_0_1),
    StableHlo.TRef.binary main_call5.v5 main_call5.v9 main_call5.v10 (cmpi .sle),
    StableHlo.TRef.binary main_call5.v7 main_call5.v10 main_call5.v11 andi,
    StableHlo.TRef.nullary main_call5.c_3 (constantI S_ 1 1#1),
    StableHlo.TRef.binary main_call5.v11 main_call5.c_3 main_call5.v12 (fun x v => Host.reduce IntOp.andi x v reducesTo_S524288x1_S524288_d1 h_S_),
    StableHlo.TRef.binary (.of main_v20) main_call5.v5 main_call5.v13 (fun x i => Host.gather gather_S4x16x524288_S524288x1_S4x16x524288_01_2_n_n_2_1_4161 x i),
    StableHlo.TRef.unary main_call5.v12 main_call5.v14 (broadcastInDim S4x16x524288 ![2] bcast_S524288_S4x16x524288_2),
    StableHlo.TRef.nullary main_call5.cst (constant S_ .f32 0x7FC00000#32),
    StableHlo.TRef.unary main_call5.cst main_call5.v15 (broadcastInDim S4x16x524288 ![] bcast_S_S4x16x524288),
    StableHlo.TRef.ternary main_call5.v14 main_call5.v13 main_call5.v15 main_call5.v16 select,
    StableHlo.unary main_v30 main_v50 (broadcastInDim S1x1x524288 ![2] bcast_S524288_S1x1x524288_2 : (⟨S524288, .f32⟩ : BufTy).Contents (Elt F) → (⟨S1x1x524288, .f32⟩ : BufTy).Contents (Elt F)),
    StableHlo.unary main_v50 main_v51 (broadcastInDim S4x16x524288 ![0, 1, 2] bcast_S1x1x524288_S4x16x524288_0_1_2 : (⟨S1x1x524288, .f32⟩ : BufTy).Contents (Elt F) → (⟨S4x16x524288, .f32⟩ : BufTy).Contents (Elt F)),
    StableHlo.binary main_v49 main_v51 main_v52 (mulf : (⟨S4x16x524288, .f32⟩ : BufTy).Contents (Elt F) → (⟨S4x16x524288, .f32⟩ : BufTy).Contents (Elt F) → (⟨S4x16x524288, .f32⟩ : BufTy).Contents (Elt F)),
    StableHlo.binary main_v44 main_v52 main_v53 (addf : (⟨S4x16x524288, .f32⟩ : BufTy).Contents (Elt F) → (⟨S4x16x524288, .f32⟩ : BufTy).Contents (Elt F) → (⟨S4x16x524288, .f32⟩ : BufTy).Contents (Elt F)),
    StableHlo.nullary main_c_14 (constantI S_ 32 1024#32),
    StableHlo.unary main_c_14 main_v54 (broadcastInDim S512x1024 ![] bcast_S_S512x1024 : (⟨S_, .i32⟩ : BufTy).Contents (Elt F) → (⟨S512x1024, .i32⟩ : BufTy).Contents (Elt F)),
    StableHlo.binary main_v19 main_v54 main_v55 (muli : (⟨S512x1024, .i32⟩ : BufTy).Contents (Elt F) → (⟨S512x1024, .i32⟩ : BufTy).Contents (Elt F) → (⟨S512x1024, .i32⟩ : BufTy).Contents (Elt F)),
    StableHlo.binary main_v55 main_v9 main_v56 (addi : (⟨S512x1024, .i32⟩ : BufTy).Contents (Elt F) → (⟨S512x1024, .i32⟩ : BufTy).Contents (Elt F) → (⟨S512x1024, .i32⟩ : BufTy).Contents (Elt F)),
    StableHlo.reshape main_v56 main_v57 rfl shapeCasts_S512x1024_S524288,
    StableHlo.TRef.nullary main_call6.c (constantI S_ 32 0#32),
    StableHlo.TRef.unary main_call6.c main_call6.v0 (broadcastInDim S524288 ![] bcast_S_S524288),
    StableHlo.TRef.binary (.of main_v57) main_call6.v0 main_call6.v1 (cmpi .slt),
    StableHlo.TRef.nullary main_call6.c_0 (constantI S_ 32 524288#32),
    StableHlo.TRef.unary main_call6.c_0 main_call6.v2 (broadcastInDim S524288 ![] bcast_S_S524288),
    StableHlo.TRef.binary (.of main_v57) main_call6.v2 main_call6.v3 addi,
    StableHlo.TRef.ternary main_call6.v1 main_call6.v3 (.of main_v57) main_call6.call0.v0 select,
    StableHlo.TRef.unary main_call6.call0.v0 main_call6.v5 (broadcastInDim S524288x1 ![0] bcast_S524288_S524288x1_0),
    StableHlo.TRef.nullary main_call6.c_1 (constantI S1 32 524287#32),
    StableHlo.TRef.nullary main_call6.c_2 (constantI S_ 32 0#32),
    StableHlo.TRef.unary main_call6.c_2 main_call6.v6 (broadcastInDim S524288x1 ![] bcast_S_S524288x1),
    StableHlo.TRef.binary main_call6.v5 main_call6.v6 main_call6.v7 (cmpi .sge),
    StableHlo.TRef.unary main_call6.c_1 main_call6.v8 (broadcastInDim S1x1 ![1] bcast_S1_S1x1_1),
    StableHlo.TRef.unary main_call6.v8 main_call6.v9 (broadcastInDim S524288x1 ![0, 1] bcast_S1x1_S524288x1_0_1),
    StableHlo.TRef.binary main_call6.v5 main_call6.v9 main_call6.v10 (cmpi .sle),
    StableHlo.TRef.binary main_call6.v7 main_call6.v10 main_call6.v11 andi,
    StableHlo.TRef.nullary main_call6.c_3 (constantI S_ 1 1#1),
    StableHlo.TRef.binary main_call6.v11 main_call6.c_3 main_call6.v12 (fun x v => Host.reduce IntOp.andi x v reducesTo_S524288x1_S524288_d1 h_S_),
    StableHlo.TRef.binary (.of main_v20) main_call6.v5 main_call6.v13 (fun x i => Host.gather gather_S4x16x524288_S524288x1_S4x16x524288_01_2_n_n_2_1_4161 x i),
    StableHlo.TRef.unary main_call6.v12 main_call6.v14 (broadcastInDim S4x16x524288 ![2] bcast_S524288_S4x16x524288_2),
    StableHlo.TRef.nullary main_call6.cst (constant S_ .f32 0x7FC00000#32),
    StableHlo.TRef.unary main_call6.cst main_call6.v15 (broadcastInDim S4x16x524288 ![] bcast_S_S4x16x524288),
    StableHlo.TRef.ternary main_call6.v14 main_call6.v13 main_call6.v15 main_call6.v16 select,
    StableHlo.unary main_v34 main_v59 (broadcastInDim S1x1x524288 ![2] bcast_S524288_S1x1x524288_2 : (⟨S524288, .f32⟩ : BufTy).Contents (Elt F) → (⟨S1x1x524288, .f32⟩ : BufTy).Contents (Elt F)),
    StableHlo.unary main_v59 main_v60 (broadcastInDim S4x16x524288 ![0, 1, 2] bcast_S1x1x524288_S4x16x524288_0_1_2 : (⟨S1x1x524288, .f32⟩ : BufTy).Contents (Elt F) → (⟨S4x16x524288, .f32⟩ : BufTy).Contents (Elt F)),
    StableHlo.binary main_v58 main_v60 main_v61 (mulf : (⟨S4x16x524288, .f32⟩ : BufTy).Contents (Elt F) → (⟨S4x16x524288, .f32⟩ : BufTy).Contents (Elt F) → (⟨S4x16x524288, .f32⟩ : BufTy).Contents (Elt F)),
    StableHlo.binary main_v53 main_v61 main_v62 (addf : (⟨S4x16x524288, .f32⟩ : BufTy).Contents (Elt F) → (⟨S4x16x524288, .f32⟩ : BufTy).Contents (Elt F) → (⟨S4x16x524288, .f32⟩ : BufTy).Contents (Elt F)),
    StableHlo.nullary main_c_15 (constantI S_ 32 1024#32),
    StableHlo.unary main_c_15 main_v63 (broadcastInDim S512x1024 ![] bcast_S_S512x1024 : (⟨S_, .i32⟩ : BufTy).Contents (Elt F) → (⟨S512x1024, .i32⟩ : BufTy).Contents (Elt F)),
    StableHlo.binary main_v19 main_v63 main_v64 (muli : (⟨S512x1024, .i32⟩ : BufTy).Contents (Elt F) → (⟨S512x1024, .i32⟩ : BufTy).Contents (Elt F) → (⟨S512x1024, .i32⟩ : BufTy).Contents (Elt F)),
    StableHlo.binary main_v64 main_v15 main_v65 (addi : (⟨S512x1024, .i32⟩ : BufTy).Contents (Elt F) → (⟨S512x1024, .i32⟩ : BufTy).Contents (Elt F) → (⟨S512x1024, .i32⟩ : BufTy).Contents (Elt F)),
    StableHlo.reshape main_v65 main_v66 rfl shapeCasts_S512x1024_S524288,
    StableHlo.TRef.nullary main_call7.c (constantI S_ 32 0#32),
    StableHlo.TRef.unary main_call7.c main_call7.v0 (broadcastInDim S524288 ![] bcast_S_S524288),
    StableHlo.TRef.binary (.of main_v66) main_call7.v0 main_call7.v1 (cmpi .slt),
    StableHlo.TRef.nullary main_call7.c_0 (constantI S_ 32 524288#32),
    StableHlo.TRef.unary main_call7.c_0 main_call7.v2 (broadcastInDim S524288 ![] bcast_S_S524288),
    StableHlo.TRef.binary (.of main_v66) main_call7.v2 main_call7.v3 addi,
    StableHlo.TRef.ternary main_call7.v1 main_call7.v3 (.of main_v66) main_call7.call0.v0 select,
    StableHlo.TRef.unary main_call7.call0.v0 main_call7.v5 (broadcastInDim S524288x1 ![0] bcast_S524288_S524288x1_0),
    StableHlo.TRef.nullary main_call7.c_1 (constantI S1 32 524287#32),
    StableHlo.TRef.nullary main_call7.c_2 (constantI S_ 32 0#32),
    StableHlo.TRef.unary main_call7.c_2 main_call7.v6 (broadcastInDim S524288x1 ![] bcast_S_S524288x1),
    StableHlo.TRef.binary main_call7.v5 main_call7.v6 main_call7.v7 (cmpi .sge),
    StableHlo.TRef.unary main_call7.c_1 main_call7.v8 (broadcastInDim S1x1 ![1] bcast_S1_S1x1_1),
    StableHlo.TRef.unary main_call7.v8 main_call7.v9 (broadcastInDim S524288x1 ![0, 1] bcast_S1x1_S524288x1_0_1),
    StableHlo.TRef.binary main_call7.v5 main_call7.v9 main_call7.v10 (cmpi .sle),
    StableHlo.TRef.binary main_call7.v7 main_call7.v10 main_call7.v11 andi,
    StableHlo.TRef.nullary main_call7.c_3 (constantI S_ 1 1#1),
    StableHlo.TRef.binary main_call7.v11 main_call7.c_3 main_call7.v12 (fun x v => Host.reduce IntOp.andi x v reducesTo_S524288x1_S524288_d1 h_S_),
    StableHlo.TRef.binary (.of main_v20) main_call7.v5 main_call7.v13 (fun x i => Host.gather gather_S4x16x524288_S524288x1_S4x16x524288_01_2_n_n_2_1_4161 x i),
    StableHlo.TRef.unary main_call7.v12 main_call7.v14 (broadcastInDim S4x16x524288 ![2] bcast_S524288_S4x16x524288_2),
    StableHlo.TRef.nullary main_call7.cst (constant S_ .f32 0x7FC00000#32),
    StableHlo.TRef.unary main_call7.cst main_call7.v15 (broadcastInDim S4x16x524288 ![] bcast_S_S4x16x524288),
    StableHlo.TRef.ternary main_call7.v14 main_call7.v13 main_call7.v15 main_call7.v16 select,
    StableHlo.unary main_v36 main_v68 (broadcastInDim S1x1x524288 ![2] bcast_S524288_S1x1x524288_2 : (⟨S524288, .f32⟩ : BufTy).Contents (Elt F) → (⟨S1x1x524288, .f32⟩ : BufTy).Contents (Elt F)),
    StableHlo.unary main_v68 main_v69 (broadcastInDim S4x16x524288 ![0, 1, 2] bcast_S1x1x524288_S4x16x524288_0_1_2 : (⟨S1x1x524288, .f32⟩ : BufTy).Contents (Elt F) → (⟨S4x16x524288, .f32⟩ : BufTy).Contents (Elt F)),
    StableHlo.binary main_v67 main_v69 main_v70 (mulf : (⟨S4x16x524288, .f32⟩ : BufTy).Contents (Elt F) → (⟨S4x16x524288, .f32⟩ : BufTy).Contents (Elt F) → (⟨S4x16x524288, .f32⟩ : BufTy).Contents (Elt F)),
    StableHlo.binary main_v62 main_v70 main_v71 (addf : (⟨S4x16x524288, .f32⟩ : BufTy).Contents (Elt F) → (⟨S4x16x524288, .f32⟩ : BufTy).Contents (Elt F) → (⟨S4x16x524288, .f32⟩ : BufTy).Contents (Elt F)),
    StableHlo.reshape main_v71 main_v72 rfl shapeCasts_S4x16x524288_S4x16x512x1024 ]

set_option maxRecDepth 8192 in
set_option maxHeartbeats 4000000 in
/-- @main is that straight line: the two windows in order, the functions' definitions unfolded at their calls and
    the records at their fields; both sides are one chain of steps once sequencing is reassociated. -/
theorem main_eq (c : Dev nD) : main (F := F) c = seq ops := by
  simp only [main, main_part0, main_part1, fn_clip.body, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation names TensorCore buffers only: the builders' facts, one per operation in the list's order. -/
theorem ops_sub : (ops : List (HloOp τ sig (Elt F))).Forall fun op => op.bufs ⊆ tcRefs τ sig :=
  ⟨unary_bufs_sub .., reshape_bufs_sub .., unary_bufs_sub .., reshape_bufs_sub .., unary_bufs_sub .., unary_bufs_sub ..,
    binary_bufs_sub .., binary_bufs_sub .., unary_bufs_sub .., nullary_bufs_sub .., nullary_bufs_sub .., unary_bufs_sub ..,
    unary_bufs_sub .., binary_bufs_sub .., unary_bufs_sub .., unary_bufs_sub .., binary_bufs_sub .., unary_bufs_sub ..,
    nullary_bufs_sub .., nullary_bufs_sub .., unary_bufs_sub .., unary_bufs_sub .., binary_bufs_sub .., unary_bufs_sub ..,
    unary_bufs_sub .., binary_bufs_sub .., unary_bufs_sub .., nullary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub .., unary_bufs_sub .., nullary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub .., reshape_bufs_sub .., nullary_bufs_sub .., unary_bufs_sub .., binary_bufs_sub ..,
    nullary_bufs_sub .., unary_bufs_sub .., binary_bufs_sub .., binary_bufs_sub .., reshape_bufs_sub .., nullary_bufs_sub ..,
    unary_bufs_sub .., binary_bufs_sub .., binary_bufs_sub .., reshape_bufs_sub .., nullary_bufs_sub .., unary_bufs_sub ..,
    binary_bufs_sub .., binary_bufs_sub .., reshape_bufs_sub .., binary_bufs_sub .., reshape_bufs_sub .., nullary_bufs_sub ..,
    unary_bufs_sub .., binary_bufs_sub .., binary_bufs_sub .., reshape_bufs_sub .., nullary_bufs_sub .., unary_bufs_sub ..,
    binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub ..,
    nullary_bufs_sub .., unary_bufs_sub .., ternary_bufs_sub .., unary_bufs_sub .., unary_bufs_sub .., binary_bufs_sub ..,
    nullary_bufs_sub .., unary_bufs_sub .., binary_bufs_sub .., binary_bufs_sub .., reshape_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., unary_bufs_sub .., unary_bufs_sub ..,
    binary_bufs_sub .., binary_bufs_sub .., nullary_bufs_sub .., unary_bufs_sub .., binary_bufs_sub .., binary_bufs_sub ..,
    reshape_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., unary_bufs_sub .., binary_bufs_sub .., binary_bufs_sub .., nullary_bufs_sub .., unary_bufs_sub ..,
    binary_bufs_sub .., binary_bufs_sub .., reshape_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., unary_bufs_sub .., unary_bufs_sub .., binary_bufs_sub .., binary_bufs_sub ..,
    reshape_bufs_sub ..⟩

set_option maxRecDepth 8192 in
set_option maxHeartbeats 4000000 in
/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Run

end
-- ==== Proof.RefValue.lean ====
/-
  The value the reference program computes, at the ideal instance (extended reals, exact operations): the fold of
  @main's operations at its result buffer is the channels-major bilinear resampling 'Cert.Resample.majorOut' of the
  contents of its two argument buffers, which no operation writes. The fold is unrolled operation by operation —
  each operation's result at its own buffer is its function's value, at any other buffer what was there —, the
  transports of a callee's values along the (reflexive) equations between a buffer's type and the value's are
  removed, and what is left is an equation between two spellings of one term: the named stages (coordinates,
  fractional parts, the clipped neighbours, their flat positions, the wrapped and range-tested take along the last
  axis, the four weights broadcast over the leading axes, the sum in order) against the operations' composition.
  They differ by the names of the shape literals, by proofs of shape relations, by eta around the reshapes and by
  the identity around the clip's converted bounds: all definitional. The gather and the reduction stay folded while
  the two are compared: the equation never looks inside them.
-/
import proofs.«178297_j58463094833218_2_alg».proof.Proof.RefOps
import proofs.«178297_j58463094833218_2_alg».proof.Proof.Spec

noncomputable section

namespace Cert.ReferenceIdeal.Run

open Cert.ReferenceIdeal Cert.ReferenceIdeal.Gen Idealize.ShloMosaic Idealize.ShloMosaic.TcCoe Idealize.SL.Sem Idealize.ShloMosaic.StableHlo

attribute [local irreducible] Host.reduce Host.gather in
set_option maxRecDepth 16384 in
set_option maxHeartbeats 4000000 in
/-- The fold at the result buffer is the channels-major resampling of the two arguments' contents. -/
theorem out_eq (V : Valuation τ sig (Elt Ideal)) :
    after (ops (F := Ideal)) V (main_v72 : DevRef τ sig)
      = Cert.Resample.majorOut (V (main_arg0 : DevRef τ sig)) (V (main_arg1 : DevRef τ sig)) := by
  after_results_simp
  simp only [cast_eq]
  rfl

set_option maxRecDepth 16384 in
set_option maxHeartbeats 4000000 in
/-- No operation writes the first argument's buffer. -/
theorem arg0_eq (V : Valuation τ sig (Elt Ideal)) :
    after (ops (F := Ideal)) V (main_arg0 : DevRef τ sig) = V (main_arg0 : DevRef τ sig) := by
  after_results_simp

set_option maxRecDepth 16384 in
set_option maxHeartbeats 4000000 in
/-- No operation writes the second argument's buffer. -/
theorem arg1_eq (V : Valuation τ sig (Elt Ideal)) :
    after (ops (F := Ideal)) V (main_arg1 : DevRef τ sig) = V (main_arg1 : DevRef τ sig) := by
  after_results_simp

/-- On every device, from any memory with zero counters: every weakly fair execution of @main terminates with the
    result buffer at the resampling of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v72)
          = Cert.Resample.majorOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run (defs (F := Ideal)) _ _).mono
    (fun _ h c => ⟨(h c main_v72).trans (out_eq _), (h c main_arg0).trans (arg0_eq _), (h c main_arg1).trans (arg1_eq _)⟩)
    (run_main (F := Ideal) m ρ)

end Cert.ReferenceIdeal.Run

end
-- ==== Proof.lean ====
/-
  Bilinear resampling of an image stack x : [4, 16, 512, 1024] at a map of real pixel coordinates [512, 1024, 2]. Both
  programs split every coordinate into its floor and its fractional offsets (dx, dy), read the four neighbouring
  pixels, clipped into the image, at their flat positions in [0, 524288) — a position out of range reads as the fill
  value — and mix the four values with the weights (1 - dx)(1 - dy), dx (1 - dy), (1 - dx) dy, dx dy, summed in one
  order. They differ in the layout only: the kernel re-lays the image as a table [524288, 64] of pixel rows, gathers a
  whole row per output pixel and neighbour, mixes row by row and re-lays the result; the reference keeps the image as
  [4, 16, 524288], gathers along the last axis and broadcasts the weights over the two leading axes. Entry (n, b · 16 + c)
  of a gathered row and entry (b, c, n) of the gather along the last axis are the same entry of x, the masks, the fill
  value and the weights are the same, so at the ideal instance the two results are one array
  (Cert.Resample.minor_eq_major).
-/
import proofs.«178297_j58463094833218_2_alg».proof.Defs
import proofs.«178297_j58463094833218_2_alg».proof.Proof.Gen.Kernel
import proofs.«178297_j58463094833218_2_alg».proof.Proof.Gen.Kernel.Skeleton
import proofs.«178297_j58463094833218_2_alg».proof.Proof.Gen.Kernel.Launch
import proofs.«178297_j58463094833218_2_alg».proof.Proof.Gen.Kernel.Points
import proofs.«178297_j58463094833218_2_alg».proof.Proof.Gen.Kernel.Frame
import proofs.«178297_j58463094833218_2_alg».proof.Proof.Gen.KernelIdeal
import proofs.«178297_j58463094833218_2_alg».proof.Proof.Gen.KernelIdeal.Skeleton
import proofs.«178297_j58463094833218_2_alg».proof.Proof.Gen.KernelIdeal.Launch
import proofs.«178297_j58463094833218_2_alg».proof.Proof.Gen.KernelIdeal.Points
import proofs.«178297_j58463094833218_2_alg».proof.Proof.Gen.KernelIdeal.Frame
import proofs.«178297_j58463094833218_2_alg».proof.Proof.Gen.ReferenceIdeal
import proofs.«178297_j58463094833218_2_alg».proof.Proof.Gen.Pre_finite_inputs
import proofs.«178297_j58463094833218_2_alg».proof.Proof.Spec
import proofs.«178297_j58463094833218_2_alg».proof.Proof.Bridge
import proofs.«178297_j58463094833218_2_alg».proof.Proof.KerRun
import proofs.«178297_j58463094833218_2_alg».proof.Proof.RefValue
import Idealize.ShloMosaic.Adequacy
import Idealize.ShloMosaic.Init

noncomputable section

open Idealize.ShloMosaic Idealize.ShloMosaic.TcCoe Idealize.SL.Sem

/-! ## The claims -/

namespace Cert.Proof.ResampleClaims

/-- The kernel as printed runs and leaves its arguments unchanged. -/
theorem frame_p : Cert.frame_Kernel := fun m ρ _ => Cert.Kernel.Gen.frame m ρ
/-- So does the kernel read at the ideal instance. -/
theorem frame_pi : Cert.frame_KernelIdeal := fun m ρ _ => Cert.KernelIdeal.Gen.frame m ρ
/-- The reference's run, its result dropped. -/
theorem frame_ri : Cert.frame_ReferenceIdeal := fun m ρ _ =>
  (θ_run Cert.ReferenceIdeal.defs _ _).mono (fun _ h c => (h c).2) (Cert.ReferenceIdeal.Run.run m ρ)

/-- The idealization rewrote no operation. -/
theorem preserves : Cert.preserves_Kernel_KernelIdeal := trivial

/-- At the ideal instance the kernel's result array ends at the channels-minor arrangement of its arguments and the
    reference's at the channels-major arrangement of arguments that agree: one array (Cert.Resample.minor_eq_major). -/
theorem algebraic : Cert.algebraic_KernelIdeal_ReferenceIdeal := by
  intro m ρ m' ρ' _ hagree
  refine ⟨fun c => Cert.Resample.minorOut (m ((c.tc : Thread _ _).loc Cert.KernelIdeal.main_arg0))
    (m ((c.tc : Thread _ _).loc Cert.KernelIdeal.main_arg1)), Cert.KernelIdeal.Blocks.run m ρ, ?_⟩
  refine (θ_run Cert.ReferenceIdeal.defs _ _).mono (fun _ h c => ⟨(h c).1.trans ?_, (h c).2⟩)
    (Cert.ReferenceIdeal.Run.run m' ρ')
  rw [(hagree c).1, (hagree c).2]
  exact (Cert.Resample.minor_eq_major _ _).symm

end Cert.Proof.ResampleClaims

namespace Cert.Proof

open Cert.Proof.ResampleClaims

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
